-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S64x40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S128x64 .f32) (main_arg4 : FVec F S64 .f32) (main_arg5 : FVec F S64x40 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩

abbrev nBuf : Space → Nat
  | .hbm => 63
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .bf16⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S128x64, .bf16⟩
  | .hbm, ⟨41, _⟩ => ⟨S128x64, .bf16⟩
  | .hbm, ⟨42, _⟩ => ⟨S1x64, .f32⟩
  | .hbm, ⟨43, _⟩ => ⟨S100000x64, .f32⟩
  | .hbm, ⟨44, _⟩ => ⟨S100000x64, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .bf16⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S64x40, .bf16⟩
  | .hbm, ⟨60, _⟩ => ⟨S64x40, .bf16⟩
  | .hbm, ⟨61, _⟩ => ⟨S1x40, .f32⟩
  | .hbm, ⟨62, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x64, .bf16⟩
  | .local _ .vmem, ⟨7, _⟩ => ⟨S128x64, .bf16⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x40, .bf16⟩
  | .local _ .vmem, ⟨18, _⟩ => ⟨S64x40, .bf16⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x40 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S40_S1x40 : S40.ShapeCasts S1x40
  shapeCasts_S5000x64_S5000x64 : S5000x64.ShapeCasts S5000x64
  broadcasts_S5000x1_S5000x64 : S5000x1.Broadcasts S5000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .bf16 = 32 ∨ (Rect.block (s := S128x64) S128x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .bf16 = 32 ∨ (Rect.block (s := S64x40) S64x40.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x40.size a ≤ S64x40.size a
  hwx1_4 : ∀ i : grid1.Coords, EltTy.bits .bf16 = 32 ∨ (Rect.block (s := S64x40) S64x40.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x40.size a ≤ S100000x40.size a
  hwx1_6 : ∀ i : grid1.Coords, EltTy.bits .f32 = 32 ∨ (Rect.block (s := S100000x40) S5000x40.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x40, .f32⟩
  | .hbm, ⟨72, _⟩ => ⟨S100000x40, .f32⟩
  | .hbm, ⟨73, _⟩ => ⟨S100000x40, .f32⟩
  | .hbm, ⟨74, _⟩ => ⟨S1x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel's run with its result named.  The program is two grid launches among stretches of host
  operations; the buffer contents at the four boundaries are a fold from the launch memory (`Gen.W1 … Gen.W4`).
  Every weakly fair execution terminates, the arguments end as launched, and the result array ends at the last
  boundary's contents `Gen.W4 … main_v44` — which the value modules then read back to the arguments.
-/
import proofs.«124584_j46772193853511_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the four segments, read against the final state at EVERY unscoped buffer: the result's array is among
    them, so it ends at the last boundary's contents; each argument walks back to the launch memory. -/
theorem run_result : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Spec.lean ====
/-
  The mathematics of the two programs, stated once over plain extended reals and independent of either program.

  One GraphSAGE layer maps a row `p` and an output feature `q` to
      (∑ₖ (S p k · r p) · Wl k q)  +  (∑ₖ X p k · Wr k q)  +  b q,
  where `S` is the sum of the neighbours' feature rows, `r p` the reciprocal of the (clamped) in-degree of node `p`,
  `X` the node's own features, `Wl`, `Wr` the two weight matrices and `b` the bias.  The first layer clamps this at
  zero from below; the second takes a row-wise log-softmax: `z q − M − log ∑_{q'} exp (z q' − M)` with `M` the
  row's maximum (a fold of `max` from the identity `−∞`).

  The one algebraic fact that joins the kernel's arrangement to the reference's is about division on the extended
  reals: for a divisor `d ≠ 0`, `s / d = s · (1 / d)` (both are `s · d⁻¹`); at `d = 0` the two would differ, and the
  divisor here is `max deg 1 ≥ 1`.  Nothing asks the summands to be finite.
-/
import Idealize.ShloMosaic.PureOps.Ideal
import Idealize.ShloMosaic.PureOps.Ideal.Laws
import Idealize.ShloMosaic.Lib.ValueIdx
import Mathlib.Data.Finset.Fold

noncomputable section

namespace Cert.Sage

open Idealize.ShloMosaic Idealize.ShloMosaic.ValueIdx
open scoped BigOperators

/-- The affine part of a layer at row `p`, output feature `q`. -/
def sageAt {N K C : ℕ} (S X : (⟨2, ![N, K]⟩ : Shape).Idx → EReal) (r : Fin N → EReal)
    (Wl Wr : (⟨2, ![K, C]⟩ : Shape).Idx → EReal) (b : Fin C → EReal) (p : Fin N) (q : Fin C) : EReal :=
  ((∑ k : Fin K, (S (ix2 p k) * r p) * Wl (ix2 k q)) + ∑ k : Fin K, X (ix2 p k) * Wr (ix2 k q)) + b q

/-- The first layer's array: the affine part clamped below at `z0` (the zero literal). -/
def layer1 {N K C : ℕ} (S X : (⟨2, ![N, K]⟩ : Shape).Idx → EReal) (r : Fin N → EReal)
    (Wl Wr : (⟨2, ![K, C]⟩ : Shape).Idx → EReal) (b : Fin C → EReal) (z0 : EReal) :
    (⟨2, ![N, C]⟩ : Shape).Idx → EReal :=
  fun i => max (sageAt S X r Wl Wr b (i 0) (i 1)) z0

/-- A row's maximum as the fold of `max` from `c0` (the `−∞` literal). -/
def rowMax {C : ℕ} (c0 : EReal) (z : Fin C → EReal) : EReal := (Finset.univ : Finset (Fin C)).fold max c0 z

/-- The log-softmax of a row `z` at `q`. -/
def logSoftmax {C : ℕ} (c0 : EReal) (z : Fin C → EReal) (q : Fin C) : EReal :=
  (z q - rowMax c0 z) - Ideal.log (∑ q' : Fin C, Ideal.exp (z q' - rowMax c0 z))

/-- The second layer's array: the row-wise log-softmax of the affine part. -/
def layer2 {N K C : ℕ} (S X : (⟨2, ![N, K]⟩ : Shape).Idx → EReal) (r : Fin N → EReal)
    (Wl Wr : (⟨2, ![K, C]⟩ : Shape).Idx → EReal) (b : Fin C → EReal) (c0 : EReal) :
    (⟨2, ![N, C]⟩ : Shape).Idx → EReal :=
  fun i => logSoftmax c0 (fun q => sageAt S X r Wl Wr b (i 0) q) (i 1)

theorem layer1_ix2 {N K C : ℕ} (S X : (⟨2, ![N, K]⟩ : Shape).Idx → EReal) (r : Fin N → EReal)
    (Wl Wr : (⟨2, ![K, C]⟩ : Shape).Idx → EReal) (b : Fin C → EReal) (z0 : EReal) (p : Fin N) (q : Fin C) :
    layer1 S X r Wl Wr b z0 (ix2 p q) = max (sageAt S X r Wl Wr b p q) z0 := rfl

theorem layer2_ix2 {N K C : ℕ} (S X : (⟨2, ![N, K]⟩ : Shape).Idx → EReal) (r : Fin N → EReal)
    (Wl Wr : (⟨2, ![K, C]⟩ : Shape).Idx → EReal) (b : Fin C → EReal) (c0 : EReal) (p : Fin N) (q : Fin C) :
    layer2 S X r Wl Wr b c0 (ix2 p q) = logSoftmax c0 (fun q' => sageAt S X r Wl Wr b p q') q := rfl

/-- Division by a nonzero extended real is multiplication by its reciprocal. -/
theorem div_eq_mul_one_div (s : EReal) {d : EReal} (hd : d ≠ 0) : Ideal.div s d = s * Ideal.div 1 d := by
  rw [Ideal.div, if_neg hd, Ideal.div, if_neg hd, one_mul]

/-- The clamped degree is not zero: it is at least `one`, and `one` is positive. -/
theorem max_ne_zero {deg one : EReal} (h1 : 0 < one) : max deg one ≠ 0 :=
  ne_of_gt (lt_of_lt_of_le h1 (le_max_right _ _))

/-- Taking the maximum with the fold's own starting value changes nothing. -/
theorem max_rowMax {C : ℕ} (c0 : EReal) (z : Fin C → EReal) : max c0 (rowMax c0 z) = rowMax c0 z :=
  max_eq_right ((Finset.le_fold_max c0).mpr (Or.inl le_rfl))

end Cert.Sage

end
-- ==== Proof.LibColumnLayout.lean ====
/-
  Two layout readings of a column, for arrays of any extents: a vector `[a]` reshaped to a column `[a, 1]` holds the
  vector's entry `i` at `(i, 0)`, and a column `[a, 1]` broadcast along a second axis to `[a, b]` holds at `(p, c)` the
  column's entry of row `p`. (The row forms `[a] → [1, a]` and `[1, b] → [a, b]` are in the library's layout file.)
-/
import Idealize.ShloMosaic.Lib.ValueIdx
import Idealize.ShloMosaic.Lib.ValueLayout
import Idealize.ShloMosaic.Lib.Pipeline.Value

namespace Cert.Gcn.Layout

open Idealize.ShloMosaic Idealize.ShloMosaic.ValueIdx

/-- A column `[a, 1]` broadcast along the rows' features to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn.Layout
-- ==== Proof.KernelPayload.lean ====
/-
  What each kernel body stores, read at an entry `(p, q)` of its output block, as the layer's formula over the
  input blocks: the products with the two weight blocks are sums over the contracted axis, the degree's reciprocal
  is a column broadcast along the features, the bias a row broadcast down the rows; changes of float format are the
  identity on the extended reals.  The second body then subtracts the row's maximum and the logarithm of the
  row's sum of exponentials.
-/
import proofs.«124584_j46772193853511_2_alg».proof.Proof.Gen.KernelIdeal.Skeleton
import proofs.«124584_j46772193853511_2_alg».proof.Proof.Spec
import proofs.«124584_j46772193853511_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open Cert.Gcn.Layout
open scoped BigOperators

theorem matmul0_apply_l0 (i : S5000x64.Idx) (g : dot_S5000x128_S128x64_S5000x64_1_0_0_1_n_n.contr.Idx) : (dot_S5000x128_S128x64_S5000x64_1_0_0_1_n_n.lhsIdx i g 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem matmul0_apply_l1 (i : S5000x64.Idx) (g : dot_S5000x128_S128x64_S5000x64_1_0_0_1_n_n.contr.Idx) : (dot_S5000x128_S128x64_S5000x64_1_0_0_1_n_n.lhsIdx i g 1).val = (g ⟨0, by decide⟩).val :=
  dot_S5000x128_S128x64_S5000x64_1_0_0_1_n_n.lhsIdx_val_of_single rfl i g
theorem matmul0_apply_r0 (i : S5000x64.Idx) (g : dot_S5000x128_S128x64_S5000x64_1_0_0_1_n_n.contr.Idx) : (dot_S5000x128_S128x64_S5000x64_1_0_0_1_n_n.rhsIdx i g 0).val = (g ⟨0, by decide⟩).val :=
  dot_S5000x128_S128x64_S5000x64_1_0_0_1_n_n.rhsIdx_val_of_single rfl i g
theorem matmul0_apply_r1 (i : S5000x64.Idx) (g : dot_S5000x128_S128x64_S5000x64_1_0_0_1_n_n.contr.Idx) : (dot_S5000x128_S128x64_S5000x64_1_0_0_1_n_n.rhsIdx i g 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- A `tpu.matmul` of a [5000, 128] block with a [128, 64] matrix into the zero accumulator, at `(p, q)`: the
    row-by-column sum over the contracted axis. -/
theorem matmul0_apply (lhs : FVec Ideal S5000x128 .bf16) (rhs : FVec Ideal S128x64 .bf16) (p : Fin 5000) (q : Fin 64) :
    matmul dot_S5000x128_S128x64_S5000x64_1_0_0_1_n_n none lhs rhs (constant (F := Ideal) S5000x64 .f32 0x00000000#32) (ix2 p q)
      = ∑ k : Fin 128, lhs (ix2 p k) * rhs (ix2 k q) := by
  refine (Ideal.matmul_constant_zero_apply dot_S5000x128_S128x64_S5000x64_1_0_0_1_n_n none lhs rhs (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact matmul0_apply_l0 _ _
      | ⟨1, _⟩ => exact (matmul0_apply_l1 _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (matmul0_apply_r0 _ _).trans hk
      | ⟨1, _⟩ => exact matmul0_apply_r1 _ _)
  rw [el, er]

theorem matmul1_apply_l0 (i : S5000x40.Idx) (g : dot_S5000x64_S64x40_S5000x40_1_0_0_1_n_n.contr.Idx) : (dot_S5000x64_S64x40_S5000x40_1_0_0_1_n_n.lhsIdx i g 0).val = (i 0).val := by
  unfold DotDims.lhsIdx
  rw [dif_neg (show ¬(0 : Fin S5000x64.rank) ∈ dot_S5000x64_S64x40_S5000x40_1_0_0_1_n_n.lhsBatch by decide),
    dif_pos (show (0 : Fin S5000x64.rank) ∈ dot_S5000x64_S64x40_S5000x40_1_0_0_1_n_n.lhsNonContracting by decide)]
  rfl
theorem matmul1_apply_l1 (i : S5000x40.Idx) (g : dot_S5000x64_S64x40_S5000x40_1_0_0_1_n_n.contr.Idx) : (dot_S5000x64_S64x40_S5000x40_1_0_0_1_n_n.lhsIdx i g 1).val = (g ⟨0, by decide⟩).val :=
  dot_S5000x64_S64x40_S5000x40_1_0_0_1_n_n.lhsIdx_val_of_single rfl i g
theorem matmul1_apply_r0 (i : S5000x40.Idx) (g : dot_S5000x64_S64x40_S5000x40_1_0_0_1_n_n.contr.Idx) : (dot_S5000x64_S64x40_S5000x40_1_0_0_1_n_n.rhsIdx i g 0).val = (g ⟨0, by decide⟩).val :=
  dot_S5000x64_S64x40_S5000x40_1_0_0_1_n_n.rhsIdx_val_of_single rfl i g
theorem matmul1_apply_r1 (i : S5000x40.Idx) (g : dot_S5000x64_S64x40_S5000x40_1_0_0_1_n_n.contr.Idx) : (dot_S5000x64_S64x40_S5000x40_1_0_0_1_n_n.rhsIdx i g 1).val = (i 1).val := by
  unfold DotDims.rhsIdx
  rw [dif_neg (show ¬(1 : Fin S64x40.rank) ∈ dot_S5000x64_S64x40_S5000x40_1_0_0_1_n_n.rhsBatch by decide),
    dif_pos (show (1 : Fin S64x40.rank) ∈ dot_S5000x64_S64x40_S5000x40_1_0_0_1_n_n.rhsNonContracting by decide)]
  rfl

/-- A `tpu.matmul` of a [5000, 64] block with a [64, 40] matrix into the zero accumulator, at `(p, q)`: the
    row-by-column sum over the contracted axis. -/
theorem matmul1_apply (lhs : FVec Ideal S5000x64 .bf16) (rhs : FVec Ideal S64x40 .bf16) (p : Fin 5000) (q : Fin 40) :
    matmul dot_S5000x64_S64x40_S5000x40_1_0_0_1_n_n none lhs rhs (constant (F := Ideal) S5000x40 .f32 0x00000000#32) (ix2 p q)
      = ∑ k : Fin 64, lhs (ix2 p k) * rhs (ix2 k q) := by
  refine (Ideal.matmul_constant_zero_apply dot_S5000x64_S64x40_S5000x40_1_0_0_1_n_n none lhs rhs (ix2 p q)).trans ?_
  rw [← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k :=
    funext fun a => Fin.ext (by
      match a with
      | ⟨0, _⟩ => exact matmul1_apply_l0 _ _
      | ⟨1, _⟩ => exact (matmul1_apply_l1 _ _).trans hk)
  have er : dot_S5000x64_S64x40_S5000x40_1_0_0_1_n_n.rhsIdx (ix2 p q) ((contrEquiv1 dot_S5000x64_S64x40_S5000x40_1_0_0_1_n_n 64 rfl rfl).symm k) = ix2 k q :=
    funext fun a => Fin.ext (by
      match a with
      | ⟨0, _⟩ => exact (matmul1_apply_r0 _ _).trans hk
      | ⟨1, _⟩ => exact matmul1_apply_r1 _ _)
  rw [el, er]

/-- The first body's stored value at `(p, q)`: the layer's affine part of the input blocks, clamped below at the
    zero literal. -/
theorem pay0_apply (x0 : Vec Ideal S5000x128 .f32) (x2 : Vec Ideal S5000x1 .f32) (x7 : Vec Ideal S5000x128 .f32)
    (x9 x12 : Vec Ideal S128x64 .bf16) (x16 : Vec Ideal S1x64 .f32) (p : Fin 5000) (q : Fin 64) :
    k0_pay1 (F := Ideal) x0 x2 x7 x9 x12 x16 (ix2 p q)
      = max (Cert.Sage.sageAt x0 x7 (fun p' => x2 (ix2 p' (0 : Fin 1))) x9 x12 (fun q' => x16 (ix2 (0 : Fin 1) q')) p q)
          (Ideal.ofBits .f32 0x00000000#32) := by
  unfold k0_pay1
  simp only [shapeCast_self]
  show max ((matmul dot_S5000x128_S128x64_S5000x64_1_0_0_1_n_n none _ x9 (constant (F := Ideal) S5000x64 .f32 0x00000000#32) (ix2 p q)
      + matmul dot_S5000x128_S128x64_S5000x64_1_0_0_1_n_n none _ x12 (constant (F := Ideal) S5000x64 .f32 0x00000000#32) (ix2 p q))
      + broadcastTo S5000x64 x16 broadcasts_S1x64_S5000x64 (ix2 p q)) (Ideal.ofBits .f32 0x00000000#32) = _
  rw [matmul0_apply, matmul0_apply, broadcastTo_1b_ab_apply]
  unfold Cert.Sage.sageAt
  refine congrArg (max · _) (congrArg (· + _) (congrArg (· + _) (Finset.sum_congr rfl fun k _ => ?_)))
  show (x0 (ix2 p k) * broadcastTo S5000x128 x2 broadcasts_S5000x1_S5000x128 (ix2 p k)) * x9 (ix2 k q) = _
  rw [broadcastTo_a1_ab_apply]

/-! ## The second body -/

/-- The second body's affine part, as the body computes it from its loaded blocks. -/
def pre1 (x0 : FVec Ideal S5000x64 .f32) (x2 : FVec Ideal S5000x1 .f32) (x7 : FVec Ideal S5000x64 .f32)
    (x10 x13 : FVec Ideal S64x40 .bf16) (x17 : FVec Ideal S1x40 .f32) : FVec Ideal S5000x40 .f32 :=
  addf
    (addf
      (matmul dot_S5000x64_S64x40_S5000x40_1_0_0_1_n_n none (truncf .bf16 (mulf x0 (broadcastTo S5000x64 x2 broadcasts_S5000x1_S5000x64)) bitsLt_bf16_f32) x10
        (constant (F := Ideal) S5000x40 .f32 0x00000000#32))
      (matmul dot_S5000x64_S64x40_S5000x40_1_0_0_1_n_n none (truncf .bf16 x7 bitsLt_bf16_f32) x13 (constant (F := Ideal) S5000x40 .f32 0x00000000#32)))
    (broadcastTo S5000x40 x17 broadcasts_S1x40_S5000x40)

/-- At `(p, q)` it is the layer's affine part of the input blocks. -/
theorem pre1_apply (x0 : FVec Ideal S5000x64 .f32) (x2 : FVec Ideal S5000x1 .f32) (x7 : FVec Ideal S5000x64 .f32)
    (x10 x13 : FVec Ideal S64x40 .bf16) (x17 : FVec Ideal S1x40 .f32) (p : Fin 5000) (q : Fin 40) :
    pre1 x0 x2 x7 x10 x13 x17 (ix2 p q)
      = Cert.Sage.sageAt x0 x7 (fun p' => x2 (ix2 p' (0 : Fin 1))) x10 x13 (fun q' => x17 (ix2 (0 : Fin 1) q')) p q := by
  unfold pre1
  show (matmul dot_S5000x64_S64x40_S5000x40_1_0_0_1_n_n none _ x10 (constant (F := Ideal) S5000x40 .f32 0x00000000#32) (ix2 p q)
      + matmul dot_S5000x64_S64x40_S5000x40_1_0_0_1_n_n none _ x13 (constant (F := Ideal) S5000x40 .f32 0x00000000#32) (ix2 p q))
      + broadcastTo S5000x40 x17 broadcasts_S1x40_S5000x40 (ix2 p q) = _
  rw [matmul1_apply, matmul1_apply, broadcastTo_1b_ab_apply]
  unfold Cert.Sage.sageAt
  refine congrArg (· + _) (congrArg (· + _) (Finset.sum_congr rfl fun k _ => ?_))
  show (x0 (ix2 p k) * broadcastTo S5000x64 x2 broadcasts_S5000x1_S5000x64 (ix2 p k)) * x10 (ix2 k q) = _
  rw [broadcastTo_a1_ab_apply]

/-- The row-wise log-softmax of a [5000, 40] block, as the body computes it: the row maximum (a lane reduction from
    `−∞`) subtracted, then the logarithm of the row's sum of exponentials subtracted. -/
def lsm1 (z : FVec Ideal S5000x40 .f32) : FVec Ideal S5000x40 .f32 :=
  subf (subf z (broadcastTo S5000x40 (shapeCast S5000x1 (multiReduction .maximumf [1] S5000 z 0xFF800000#32 reduces_S5000x40_S5000 (.inl rfl) rfl) shapeCasts_S5000_S5000x1) broadcasts_S5000x1_S5000x40))
    (broadcastTo S5000x40 (log (shapeCast S5000x1 (multiReduction .add [1] S5000 (exp (subf z (broadcastTo S5000x40 (shapeCast S5000x1 (multiReduction .maximumf [1] S5000 z 0xFF800000#32 reduces_S5000x40_S5000 (.inl rfl) rfl) shapeCasts_S5000_S5000x1) broadcasts_S5000x1_S5000x40))) 0x00000000#32 reduces_S5000x40_S5000 (.inl rfl) rfl) shapeCasts_S5000_S5000x1)) broadcasts_S5000x1_S5000x40)

/-- The second body's stored value is the log-softmax of its affine part. -/
theorem pay1_eq (x0 : Vec Ideal S5000x64 .f32) (x2 : Vec Ideal S5000x1 .f32) (x7 : Vec Ideal S5000x64 .f32)
    (x10 x13 : Vec Ideal S64x40 .bf16) (x17 : Vec Ideal S1x40 .f32) :
    k1_pay1 (F := Ideal) x0 x2 x7 x10 x13 x17 = lsm1 (pre1 x0 x2 x7 x10 x13 x17) := by
  unfold k1_pay1 lsm1 pre1
  simp only [shapeCast_self]

/-- The lane maximum of row `p` is the fold of `max` over the row from the `−∞` literal. -/
theorem rowmax1 (z : FVec Ideal S5000x40 .f32) (p : Fin 5000) :
    (multiReduction .maximumf [1] S5000 z 0xFF800000#32 reduces_S5000x40_S5000 (.inl rfl) rfl) (ix1 p) = Cert.Sage.rowMax (Ideal.ofBits .f32 0xFF800000#32) (fun q' : Fin 40 => z (ix2 p q')) := by
  refine (Ideal.multiReduction_maximumf_single z 0xFF800000#32 reduces_S5000x40_S5000 (.inl rfl) rfl (ix1 p)).trans ?_
  unfold Cert.Sage.rowMax
  show (Finset.univ : Finset (Fin 40)).fold max (Ideal.ofBits .f32 0xFF800000#32) (fun k => z (reduces_S5000x40_S5000.lift (ix1 p) k))
      = (Finset.univ : Finset (Fin 40)).fold max (Ideal.ofBits .f32 0xFF800000#32) (fun k => z (ix2 p k))
  refine congrArg (fun f => (Finset.univ : Finset (Fin 40)).fold max (Ideal.ofBits .f32 0xFF800000#32) f) (funext fun k => congrArg z ?_)
  funext a
  apply Fin.ext
  match a with
  | ⟨0, _⟩ => rfl
  | ⟨1, _⟩ => rfl

/-- The lane sum of row `p` is the sum over the row. -/
theorem rowsum1 (v : FVec Ideal S5000x40 .f32) (p : Fin 5000) :
    (multiReduction .add [1] S5000 v 0x00000000#32 reduces_S5000x40_S5000 (.inl rfl) rfl) (ix1 p) = ∑ k : Fin 40, v (ix2 p k) := by
  refine (Ideal.multiReduction_add_single v 0x00000000#32 reduces_S5000x40_S5000 (.inl rfl) rfl (ix1 p)).trans ?_
  show ∑ k : Fin 40, v (reduces_S5000x40_S5000.lift (ix1 p) k) = ∑ k : Fin 40, v (ix2 p k)
  refine Finset.sum_congr rfl fun k _ => congrArg v ?_
  funext a
  apply Fin.ext
  match a with
  | ⟨0, _⟩ => rfl
  | ⟨1, _⟩ => rfl

/-- The body's log-softmax at `(p, q)` is the log-softmax of row `p` at `q`. -/
theorem lsm1_apply (z : FVec Ideal S5000x40 .f32) (p : Fin 5000) (q : Fin 40) :
    lsm1 z (ix2 p q) = Cert.Sage.logSoftmax (Ideal.ofBits .f32 0xFF800000#32) (fun q' => z (ix2 p q')) q := by
  have hM : ∀ q' : Fin 40, (broadcastTo S5000x40 (shapeCast S5000x1 (multiReduction .maximumf [1] S5000 z 0xFF800000#32 reduces_S5000x40_S5000 (.inl rfl) rfl) shapeCasts_S5000_S5000x1) broadcasts_S5000x1_S5000x40) (ix2 p q') = Cert.Sage.rowMax (Ideal.ofBits .f32 0xFF800000#32) (fun q'' : Fin 40 => z (ix2 p q'')) := fun q' =>
    ((broadcastTo_a1_ab_apply _ broadcasts_S5000x1_S5000x40 p q').trans (shapeCast_a_a1_apply _ shapeCasts_S5000_S5000x1 p 0)).trans (rowmax1 z p)
  unfold lsm1 Cert.Sage.logSoftmax
  show (z (ix2 p q) - (broadcastTo S5000x40 (shapeCast S5000x1 (multiReduction .maximumf [1] S5000 z 0xFF800000#32 reduces_S5000x40_S5000 (.inl rfl) rfl) shapeCasts_S5000_S5000x1) broadcasts_S5000x1_S5000x40) (ix2 p q))
      - broadcastTo S5000x40 (log (shapeCast S5000x1 (multiReduction .add [1] S5000 (exp (subf z (broadcastTo S5000x40 (shapeCast S5000x1 (multiReduction .maximumf [1] S5000 z 0xFF800000#32 reduces_S5000x40_S5000 (.inl rfl) rfl) shapeCasts_S5000_S5000x1) broadcasts_S5000x1_S5000x40))) 0x00000000#32 reduces_S5000x40_S5000 (.inl rfl) rfl) shapeCasts_S5000_S5000x1)) broadcasts_S5000x1_S5000x40 (ix2 p q) = _
  rw [hM q, broadcastTo_a1_ab_apply]
  show _ - Ideal.log (shapeCast S5000x1 (multiReduction .add [1] S5000 (exp (subf z (broadcastTo S5000x40 (shapeCast S5000x1 (multiReduction .maximumf [1] S5000 z 0xFF800000#32 reduces_S5000x40_S5000 (.inl rfl) rfl) shapeCasts_S5000_S5000x1) broadcasts_S5000x1_S5000x40))) 0x00000000#32 reduces_S5000x40_S5000 (.inl rfl) rfl) shapeCasts_S5000_S5000x1 (ix2 p (0 : Fin 1))) = _
  rw [shapeCast_a_a1_apply, rowsum1]
  refine congrArg (fun s => _ - Ideal.log s) (Finset.sum_congr rfl fun k _ => ?_)
  show Ideal.exp (z (ix2 p k) - (broadcastTo S5000x40 (shapeCast S5000x1 (multiReduction .maximumf [1] S5000 z 0xFF800000#32 reduces_S5000x40_S5000 (.inl rfl) rfl) shapeCasts_S5000_S5000x1) broadcasts_S5000x1_S5000x40) (ix2 p k)) = _
  rw [hM k]

/-- The second body's stored value at `(p, q)`: the log-softmax of the row of affine parts of the input blocks. -/
theorem pay1_apply (x0 : Vec Ideal S5000x64 .f32) (x2 : Vec Ideal S5000x1 .f32) (x7 : Vec Ideal S5000x64 .f32)
    (x10 x13 : Vec Ideal S64x40 .bf16) (x17 : Vec Ideal S1x40 .f32) (p : Fin 5000) (q : Fin 40) :
    k1_pay1 (F := Ideal) x0 x2 x7 x10 x13 x17 (ix2 p q)
      = Cert.Sage.logSoftmax (Ideal.ofBits .f32 0xFF800000#32)
          (fun q' => Cert.Sage.sageAt x0 x7 (fun p' => x2 (ix2 p' (0 : Fin 1))) x10 x13 (fun q'' => x17 (ix2 (0 : Fin 1) q'')) p q') q := by
  rw [pay1_eq, lsm1_apply]
  exact congrArg (fun f => Cert.Sage.logSoftmax (Ideal.ofBits .f32 0xFF800000#32) f q) (funext fun q' => pre1_apply x0 x2 x7 x10 x13 x17 p q')

end Cert.KernelIdeal.Payload

end
-- ==== Proof.KernelBlocks.lean ====
/-
  From blocks to arrays.  Each launch runs its body once per block of 5000 rows; the input windows' blocks at a
  point are the rows `5000·t … 5000·t + 4999` of their arrays (the weights and the bias whole), so the value the
  body stores at block entry `(p, q)` is the layer's formula of the ARRAYS at row `5000·t + p`; the twenty blocks
  tile the output array, so after the launch the output array is that formula at every index.  Stated for any
  contents `V` of the buffers at the launch's entry.
-/
import proofs.«124584_j46772193853511_2_alg».proof.Proof.Gen.KernelIdeal.Frame
import proofs.«124584_j46772193853511_2_alg».proof.Proof.KernelPayload
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## Launch 0 -/

/-- The printed index maps, decided over the grid: the row-blocked windows move with the grid point along the rows, the
    weights' and the bias' windows stay at block (0, 0). -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- Window 0's block at a point, read at a block index, is its array read at that index moved by the block's offset. -/
theorem blk0_0 (c : Dev nD) (t : Fin cfg0.N) (x : S5000x128.Idx) (k : S100000x128.Idx)
    (h0 : (k 0).val = win0_0.index t (0 : Fin 2) * 5000 + (x 0).val)
    (h1 : (k 1).val = win0_0.index t (1 : Fin 2) * 128 + (x 1).val) :
    (iblk0 V c 0 t : Vec Ideal S5000x128 .f32) x = V c main_v24 k := by
  unfold iblk0
  rw [View.read_apply]
  show V c main_v24 _ = V c main_v24 k
  congr 1
  funext a
  apply Fin.ext
  match a with
  | ⟨0, _⟩ => show win0_0.index t (0 : Fin 2) * 5000 + 1 * (x 0).val = (k 0).val; omega
  | ⟨1, _⟩ => show win0_0.index t (1 : Fin 2) * 128 + 1 * (x 1).val = (k 1).val; omega

/-- Window 1's block at a point, read at a block index, is its array read at that index moved by the block's offset. -/
theorem blk0_1 (c : Dev nD) (t : Fin cfg0.N) (x : S5000x128.Idx) (k : S100000x128.Idx)
    (h0 : (k 0).val = win0_1.index t (0 : Fin 2) * 5000 + (x 0).val)
    (h1 : (k 1).val = win0_1.index t (1 : Fin 2) * 128 + (x 1).val) :
    (iblk0 V c 1 t : Vec Ideal S5000x128 .f32) x = V c main_arg0 k := by
  unfold iblk0
  rw [View.read_apply]
  show V c main_arg0 _ = V c main_arg0 k
  congr 1
  funext a
  apply Fin.ext
  match a with
  | ⟨0, _⟩ => show win0_1.index t (0 : Fin 2) * 5000 + 1 * (x 0).val = (k 0).val; omega
  | ⟨1, _⟩ => show win0_1.index t (1 : Fin 2) * 128 + 1 * (x 1).val = (k 1).val; omega

/-- Window 2's block at a point, read at a block index, is its array read at that index moved by the block's offset. -/
theorem blk0_2 (c : Dev nD) (t : Fin cfg0.N) (x : S5000x1.Idx) (k : S100000x1.Idx)
    (h0 : (k 0).val = win0_2.index t (0 : Fin 2) * 5000 + (x 0).val)
    (h1 : (k 1).val = win0_2.index t (1 : Fin 2) * 1 + (x 1).val) :
    (iblk0 V c 2 t : Vec Ideal S5000x1 .f32) x = V c main_v12 k := by
  unfold iblk0
  rw [View.read_apply]
  show V c main_v12 _ = V c main_v12 k
  congr 1
  funext a
  apply Fin.ext
  match a with
  | ⟨0, _⟩ => show win0_2.index t (0 : Fin 2) * 5000 + 1 * (x 0).val = (k 0).val; omega
  | ⟨1, _⟩ => show win0_2.index t (1 : Fin 2) * 1 + 1 * (x 1).val = (k 1).val; omega

/-- Window 3's block at a point, read at a block index, is its array read at that index moved by the block's offset. -/
theorem blk0_3 (c : Dev nD) (t : Fin cfg0.N) (x : S128x64.Idx) (k : S128x64.Idx)
    (h0 : (k 0).val = win0_3.index t (0 : Fin 2) * 128 + (x 0).val)
    (h1 : (k 1).val = win0_3.index t (1 : Fin 2) * 64 + (x 1).val) :
    (iblk0 V c 3 t : Vec Ideal S128x64 .bf16) x = V c main_v25 k := by
  unfold iblk0
  rw [View.read_apply]
  show V c main_v25 _ = V c main_v25 k
  congr 1
  funext a
  apply Fin.ext
  match a with
  | ⟨0, _⟩ => show win0_3.index t (0 : Fin 2) * 128 + 1 * (x 0).val = (k 0).val; omega
  | ⟨1, _⟩ => show win0_3.index t (1 : Fin 2) * 64 + 1 * (x 1).val = (k 1).val; omega

/-- Window 4's block at a point, read at a block index, is its array read at that index moved by the block's offset. -/
theorem blk0_4 (c : Dev nD) (t : Fin cfg0.N) (x : S128x64.Idx) (k : S128x64.Idx)
    (h0 : (k 0).val = win0_4.index t (0 : Fin 2) * 128 + (x 0).val)
    (h1 : (k 1).val = win0_4.index t (1 : Fin 2) * 64 + (x 1).val) :
    (iblk0 V c 4 t : Vec Ideal S128x64 .bf16) x = V c main_v26 k := by
  unfold iblk0
  rw [View.read_apply]
  show V c main_v26 _ = V c main_v26 k
  congr 1
  funext a
  apply Fin.ext
  match a with
  | ⟨0, _⟩ => show win0_4.index t (0 : Fin 2) * 128 + 1 * (x 0).val = (k 0).val; omega
  | ⟨1, _⟩ => show win0_4.index t (1 : Fin 2) * 64 + 1 * (x 1).val = (k 1).val; omega

/-- Window 5's block at a point, read at a block index, is its array read at that index moved by the block's offset. -/
theorem blk0_5 (c : Dev nD) (t : Fin cfg0.N) (x : S1x64.Idx) (k : S1x64.Idx)
    (h0 : (k 0).val = win0_5.index t (0 : Fin 2) * 1 + (x 0).val)
    (h1 : (k 1).val = win0_5.index t (1 : Fin 2) * 64 + (x 1).val) :
    (iblk0 V c 5 t : Vec Ideal S1x64 .f32) x = V c main_v27 k := by
  unfold iblk0
  rw [View.read_apply]
  show V c main_v27 _ = V c main_v27 k
  congr 1
  funext a
  apply Fin.ext
  match a with
  | ⟨0, _⟩ => show win0_5.index t (0 : Fin 2) * 1 + 1 * (x 0).val = (k 0).val; omega
  | ⟨1, _⟩ => show win0_5.index t (1 : Fin 2) * 64 + 1 * (x 1).val = (k 1).val; omega

/-- What launch 0's output array holds after the launch, as one function of the arrays the launch finds: the
    first layer (clamped at zero) of the summed neighbour rows, the nodes' own rows, the reciprocal degrees, the two
    weight matrices and the bias. -/
def arr0 (c : Dev nD) : S100000x64.Idx → EReal :=
  Cert.Sage.layer1 (N := 100000) (K := 128) (C := 64) (V c main_v24) (V c main_arg0) (fun p => V c main_v12 (ix2 p (0 : Fin 1)))
    (V c main_v25) (V c main_v26) (fun q => V c main_v27 (ix2 (0 : Fin 1) q)) (Ideal.ofBits .f32 0x00000000#32)

/-- The layer's affine part of the input blocks at `(p, q')` is the affine part of the arrays at the block's row. -/
theorem sage0_blocks (c : Dev nD) (t : Fin cfg0.N) (p : Fin 5000) (q : Fin 64) (P : Fin 100000) (hP : P.val = t.val * 5000 + p.val) :
    Cert.Sage.sageAt (N := 5000) (K := 128) (C := 64) (iblk0 V c 0 t) (iblk0 V c 1 t) (fun p' => (iblk0 V c 2 t : Vec Ideal S5000x1 .f32) (ix2 p' (0 : Fin 1)))
        (iblk0 V c 3 t) (iblk0 V c 4 t) (fun q' => (iblk0 V c 5 t : Vec Ideal S1x64 .f32) (ix2 (0 : Fin 1) q')) p q
      = Cert.Sage.sageAt (N := 100000) (K := 128) (C := 64) (V c main_v24) (V c main_arg0) (fun p' => V c main_v12 (ix2 p' (0 : Fin 1)))
        (V c main_v25) (V c main_v26) (fun q' => V c main_v27 (ix2 (0 : Fin 1) q')) P q := by
  obtain ⟨e00, e01, e10, e11, e20, e21, e30, e31, e40, e41, e50, e51, e60, e61⟩ := idx0 t
  unfold Cert.Sage.sageAt
  refine congrArg₂ (· + ·) (congrArg₂ (· + ·) (Finset.sum_congr rfl fun k _ => ?_) (Finset.sum_congr rfl fun k _ => ?_)) ?_
  · beta_reduce
    rw [blk0_0 V c t (ix2 p k) (ix2 P k) (by show P.val = _ * 5000 + p.val; rw [e00]; exact hP) (by show k.val = _ * 128 + k.val; rw [e01]; omega),
      blk0_2 V c t (ix2 p (0 : Fin 1)) (ix2 P (0 : Fin 1)) (by show P.val = _ * 5000 + p.val; rw [e20]; exact hP) (by show (0 : Nat) = _ * 1 + 0; rw [e21]),
      blk0_3 V c t (ix2 k q) (ix2 k q) (by show k.val = _ * 128 + k.val; rw [e30]; omega) (by show q.val = _ * 64 + q.val; rw [e31]; omega)]
  · beta_reduce
    rw [blk0_1 V c t (ix2 p k) (ix2 P k) (by show P.val = _ * 5000 + p.val; rw [e10]; exact hP) (by show k.val = _ * 128 + k.val; rw [e11]; omega),
      blk0_4 V c t (ix2 k q) (ix2 k q) (by show k.val = _ * 128 + k.val; rw [e40]; omega) (by show q.val = _ * 64 + q.val; rw [e41]; omega)]
  · beta_reduce
    rw [blk0_5 V c t (ix2 (0 : Fin 1) q) (ix2 (0 : Fin 1) q) (by show (0 : Nat) = _ * 1 + 0; rw [e50]) (by show q.val = _ * 64 + q.val; rw [e51]; omega)]

/-- WHAT POINT `t` STORES, at a block index, is the output function at the array index the block puts it at. -/
theorem point0 (c : Dev nD) (t : Fin cfg0.N) (j : S5000x64.Idx) (i : S100000x64.Idx)
    (hi0 : (i 0).val = win0_6.index t (0 : Fin 2) * 5000 + 1 * (j 0).val) (hi1 : (i 1).val = win0_6.index t (1 : Fin 2) * 64 + 1 * (j 1).val) :
    k0_pay1 (F := Ideal) (iblk0 V c 0 t) (iblk0 V c 2 t) (iblk0 V c 1 t) (iblk0 V c 3 t) (iblk0 V c 4 t) (iblk0 V c 5 t) j
      = arr0 V c i := by
  obtain ⟨p, q, rfl⟩ : ∃ (p : Fin 5000) (q : Fin 64), j = ix2 p q := ⟨j 0, j 1, eq_ix2 j⟩
  obtain ⟨P, Q, rfl⟩ : ∃ (P : Fin 100000) (Q : Fin 64), i = ix2 P Q := ⟨i 0, i 1, eq_ix2 i⟩
  obtain ⟨e00, e01, e10, e11, e20, e21, e30, e31, e40, e41, e50, e51, e60, e61⟩ := idx0 t
  have hP0 : P.val = win0_6.index t (0 : Fin 2) * 5000 + 1 * p.val := hi0
  have hQ0 : Q.val = win0_6.index t (1 : Fin 2) * 64 + 1 * q.val := hi1
  rw [e60] at hP0
  rw [e61] at hQ0
  have hP : P.val = t.val * 5000 + p.val := by omega
  have hQ : Q = q := Fin.ext (by omega)
  subst hQ
  refine (Payload.pay0_apply (iblk0 V c 0 t) (iblk0 V c 2 t) (iblk0 V c 1 t) (iblk0 V c 3 t) (iblk0 V c 4 t) (iblk0 V c 5 t) p Q).trans ?_
  show max _ _ = max _ _
  exact congrArg (max · _) (sage0_blocks V c t p Q P hP)

/-- What point `t` writes back is block `t` of the output function. -/
theorem flushed0_eq (c : Dev nD) (t : Fin cfg0.N) :
    (dat0 V c).flushed 6 t = ((cfg0.win 6).blk t).view.read (Elt Ideal) (arr0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x64) hz, View.ld_unit_zero (S := S1x64) hz]
  funext j
  exact point0 V c t j (((cfg0.win 6).blk t).view.emb j) rfl rfl

/-- An index of the output array is in point `t`'s block iff each coordinate is in the block's range. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v28).slice (win0_6.rect t)).set ↔ _
  rw [View.set_slice_whole, Rect.mem_set_unit]
  exact Iff.rfl

/-- Every index of the output array is in the block of the point its row falls to: row `r` is in block `r / 5000`. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have ht : (i 0).val / 5000 < cfg0.N := by show _ < grid0.N; rw [N_0]; omega
  obtain ⟨e00, e01, e10, e11, e20, e21, e30, e31, e40, e41, e50, e51, e60, e61⟩ := idx0 ⟨(i 0).val / 5000, ht⟩
  refine ⟨⟨(i 0).val / 5000, ht⟩, flush0_6 _, ?_⟩
  rw [mem_blk0]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, ht⟩ (1 : Fin 2) * 64 ≤ (i 1).val ∧ (i 1).val < win0_6.index ⟨(i 0).val / 5000, ht⟩ (1 : Fin 2) * 64 + 64
    rw [e61]
    omega

/-- THE OUTPUT ARRAY after launch 0: the output function of the arrays the launch finds. -/
theorem final0 (c : Dev nD) : (dat0 V c).arrAt 6 cfg0.N = arr0 V c :=
  (dat0 V c).arrAt_eq_of_cover 6 (arr0 V c) (fun t _ => flushed0_eq V c t) (cover0)

/-! ## Launch 1 -/

/-- The printed index maps, decided over the grid: the row-blocked windows move with the grid point along the rows, the
    weights' and the bias' windows stay at block (0, 0). -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- Window 0's block at a point, read at a block index, is its array read at that index moved by the block's offset. -/
theorem blk1_0 (c : Dev nD) (t : Fin cfg1.N) (x : S5000x64.Idx) (k : S100000x64.Idx)
    (h0 : (k 0).val = win1_0.index t (0 : Fin 2) * 5000 + (x 0).val)
    (h1 : (k 1).val = win1_0.index t (1 : Fin 2) * 64 + (x 1).val) :
    (iblk1 V c 0 t : Vec Ideal S5000x64 .f32) x = V c main_v40 k := by
  unfold iblk1
  rw [View.read_apply]
  show V c main_v40 _ = V c main_v40 k
  congr 1
  funext a
  apply Fin.ext
  match a with
  | ⟨0, _⟩ => show win1_0.index t (0 : Fin 2) * 5000 + 1 * (x 0).val = (k 0).val; omega
  | ⟨1, _⟩ => show win1_0.index t (1 : Fin 2) * 64 + 1 * (x 1).val = (k 1).val; omega

/-- Window 1's block at a point, read at a block index, is its array read at that index moved by the block's offset. -/
theorem blk1_1 (c : Dev nD) (t : Fin cfg1.N) (x : S5000x64.Idx) (k : S100000x64.Idx)
    (h0 : (k 0).val = win1_1.index t (0 : Fin 2) * 5000 + (x 0).val)
    (h1 : (k 1).val = win1_1.index t (1 : Fin 2) * 64 + (x 1).val) :
    (iblk1 V c 1 t : Vec Ideal S5000x64 .f32) x = V c main_v28 k := by
  unfold iblk1
  rw [View.read_apply]
  show V c main_v28 _ = V c main_v28 k
  congr 1
  funext a
  apply Fin.ext
  match a with
  | ⟨0, _⟩ => show win1_1.index t (0 : Fin 2) * 5000 + 1 * (x 0).val = (k 0).val; omega
  | ⟨1, _⟩ => show win1_1.index t (1 : Fin 2) * 64 + 1 * (x 1).val = (k 1).val; omega

/-- Window 2's block at a point, read at a block index, is its array read at that index moved by the block's offset. -/
theorem blk1_2 (c : Dev nD) (t : Fin cfg1.N) (x : S5000x1.Idx) (k : S100000x1.Idx)
    (h0 : (k 0).val = win1_2.index t (0 : Fin 2) * 5000 + (x 0).val)
    (h1 : (k 1).val = win1_2.index t (1 : Fin 2) * 1 + (x 1).val) :
    (iblk1 V c 2 t : Vec Ideal S5000x1 .f32) x = V c main_v12 k := by
  unfold iblk1
  rw [View.read_apply]
  show V c main_v12 _ = V c main_v12 k
  congr 1
  funext a
  apply Fin.ext
  match a with
  | ⟨0, _⟩ => show win1_2.index t (0 : Fin 2) * 5000 + 1 * (x 0).val = (k 0).val; omega
  | ⟨1, _⟩ => show win1_2.index t (1 : Fin 2) * 1 + 1 * (x 1).val = (k 1).val; omega

/-- Window 3's block at a point, read at a block index, is its array read at that index moved by the block's offset. -/
theorem blk1_3 (c : Dev nD) (t : Fin cfg1.N) (x : S64x40.Idx) (k : S64x40.Idx)
    (h0 : (k 0).val = win1_3.index t (0 : Fin 2) * 64 + (x 0).val)
    (h1 : (k 1).val = win1_3.index t (1 : Fin 2) * 40 + (x 1).val) :
    (iblk1 V c 3 t : Vec Ideal S64x40 .bf16) x = V c main_v41 k := by
  unfold iblk1
  rw [View.read_apply]
  show V c main_v41 _ = V c main_v41 k
  congr 1
  funext a
  apply Fin.ext
  match a with
  | ⟨0, _⟩ => show win1_3.index t (0 : Fin 2) * 64 + 1 * (x 0).val = (k 0).val; omega
  | ⟨1, _⟩ => show win1_3.index t (1 : Fin 2) * 40 + 1 * (x 1).val = (k 1).val; omega

/-- Window 4's block at a point, read at a block index, is its array read at that index moved by the block's offset. -/
theorem blk1_4 (c : Dev nD) (t : Fin cfg1.N) (x : S64x40.Idx) (k : S64x40.Idx)
    (h0 : (k 0).val = win1_4.index t (0 : Fin 2) * 64 + (x 0).val)
    (h1 : (k 1).val = win1_4.index t (1 : Fin 2) * 40 + (x 1).val) :
    (iblk1 V c 4 t : Vec Ideal S64x40 .bf16) x = V c main_v42 k := by
  unfold iblk1
  rw [View.read_apply]
  show V c main_v42 _ = V c main_v42 k
  congr 1
  funext a
  apply Fin.ext
  match a with
  | ⟨0, _⟩ => show win1_4.index t (0 : Fin 2) * 64 + 1 * (x 0).val = (k 0).val; omega
  | ⟨1, _⟩ => show win1_4.index t (1 : Fin 2) * 40 + 1 * (x 1).val = (k 1).val; omega

/-- Window 5's block at a point, read at a block index, is its array read at that index moved by the block's offset. -/
theorem blk1_5 (c : Dev nD) (t : Fin cfg1.N) (x : S1x40.Idx) (k : S1x40.Idx)
    (h0 : (k 0).val = win1_5.index t (0 : Fin 2) * 1 + (x 0).val)
    (h1 : (k 1).val = win1_5.index t (1 : Fin 2) * 40 + (x 1).val) :
    (iblk1 V c 5 t : Vec Ideal S1x40 .f32) x = V c main_v43 k := by
  unfold iblk1
  rw [View.read_apply]
  show V c main_v43 _ = V c main_v43 k
  congr 1
  funext a
  apply Fin.ext
  match a with
  | ⟨0, _⟩ => show win1_5.index t (0 : Fin 2) * 1 + 1 * (x 0).val = (k 0).val; omega
  | ⟨1, _⟩ => show win1_5.index t (1 : Fin 2) * 40 + 1 * (x 1).val = (k 1).val; omega

/-- What launch 1's output array holds after the launch, as one function of the arrays the launch finds: the
    second layer (row-wise log-softmax) of the summed neighbour rows, the nodes' own rows, the reciprocal degrees, the two
    weight matrices and the bias. -/
def arr1 (c : Dev nD) : S100000x40.Idx → EReal :=
  Cert.Sage.layer2 (N := 100000) (K := 64) (C := 40) (V c main_v40) (V c main_v28) (fun p => V c main_v12 (ix2 p (0 : Fin 1)))
    (V c main_v41) (V c main_v42) (fun q => V c main_v43 (ix2 (0 : Fin 1) q)) (Ideal.ofBits .f32 0xFF800000#32)

/-- The layer's affine part of the input blocks at `(p, q')` is the affine part of the arrays at the block's row. -/
theorem sage1_blocks (c : Dev nD) (t : Fin cfg1.N) (p : Fin 5000) (q : Fin 40) (P : Fin 100000) (hP : P.val = t.val * 5000 + p.val) :
    Cert.Sage.sageAt (N := 5000) (K := 64) (C := 40) (iblk1 V c 0 t) (iblk1 V c 1 t) (fun p' => (iblk1 V c 2 t : Vec Ideal S5000x1 .f32) (ix2 p' (0 : Fin 1)))
        (iblk1 V c 3 t) (iblk1 V c 4 t) (fun q' => (iblk1 V c 5 t : Vec Ideal S1x40 .f32) (ix2 (0 : Fin 1) q')) p q
      = Cert.Sage.sageAt (N := 100000) (K := 64) (C := 40) (V c main_v40) (V c main_v28) (fun p' => V c main_v12 (ix2 p' (0 : Fin 1)))
        (V c main_v41) (V c main_v42) (fun q' => V c main_v43 (ix2 (0 : Fin 1) q')) P q := by
  obtain ⟨e00, e01, e10, e11, e20, e21, e30, e31, e40, e41, e50, e51, e60, e61⟩ := idx1 t
  unfold Cert.Sage.sageAt
  refine congrArg₂ (· + ·) (congrArg₂ (· + ·) (Finset.sum_congr rfl fun k _ => ?_) (Finset.sum_congr rfl fun k _ => ?_)) ?_
  · beta_reduce
    rw [blk1_0 V c t (ix2 p k) (ix2 P k) (by show P.val = _ * 5000 + p.val; rw [e00]; exact hP) (by show k.val = _ * 64 + k.val; rw [e01]; omega),
      blk1_2 V c t (ix2 p (0 : Fin 1)) (ix2 P (0 : Fin 1)) (by show P.val = _ * 5000 + p.val; rw [e20]; exact hP) (by show (0 : Nat) = _ * 1 + 0; rw [e21]),
      blk1_3 V c t (ix2 k q) (ix2 k q) (by show k.val = _ * 64 + k.val; rw [e30]; omega) (by show q.val = _ * 40 + q.val; rw [e31]; omega)]
  · beta_reduce
    rw [blk1_1 V c t (ix2 p k) (ix2 P k) (by show P.val = _ * 5000 + p.val; rw [e10]; exact hP) (by show k.val = _ * 64 + k.val; rw [e11]; omega),
      blk1_4 V c t (ix2 k q) (ix2 k q) (by show k.val = _ * 64 + k.val; rw [e40]; omega) (by show q.val = _ * 40 + q.val; rw [e41]; omega)]
  · beta_reduce
    rw [blk1_5 V c t (ix2 (0 : Fin 1) q) (ix2 (0 : Fin 1) q) (by show (0 : Nat) = _ * 1 + 0; rw [e50]) (by show q.val = _ * 40 + q.val; rw [e51]; omega)]

/-- WHAT POINT `t` STORES, at a block index, is the output function at the array index the block puts it at. -/
theorem point1 (c : Dev nD) (t : Fin cfg1.N) (j : S5000x40.Idx) (i : S100000x40.Idx)
    (hi0 : (i 0).val = win1_6.index t (0 : Fin 2) * 5000 + 1 * (j 0).val) (hi1 : (i 1).val = win1_6.index t (1 : Fin 2) * 40 + 1 * (j 1).val) :
    k1_pay1 (F := Ideal) (iblk1 V c 0 t) (iblk1 V c 2 t) (iblk1 V c 1 t) (iblk1 V c 3 t) (iblk1 V c 4 t) (iblk1 V c 5 t) j
      = arr1 V c i := by
  obtain ⟨p, q, rfl⟩ : ∃ (p : Fin 5000) (q : Fin 40), j = ix2 p q := ⟨j 0, j 1, eq_ix2 j⟩
  obtain ⟨P, Q, rfl⟩ : ∃ (P : Fin 100000) (Q : Fin 40), i = ix2 P Q := ⟨i 0, i 1, eq_ix2 i⟩
  obtain ⟨e00, e01, e10, e11, e20, e21, e30, e31, e40, e41, e50, e51, e60, e61⟩ := idx1 t
  have hP0 : P.val = win1_6.index t (0 : Fin 2) * 5000 + 1 * p.val := hi0
  have hQ0 : Q.val = win1_6.index t (1 : Fin 2) * 40 + 1 * q.val := hi1
  rw [e60] at hP0
  rw [e61] at hQ0
  have hP : P.val = t.val * 5000 + p.val := by omega
  have hQ : Q = q := Fin.ext (by omega)
  subst hQ
  refine (Payload.pay1_apply (iblk1 V c 0 t) (iblk1 V c 2 t) (iblk1 V c 1 t) (iblk1 V c 3 t) (iblk1 V c 4 t) (iblk1 V c 5 t) p Q).trans ?_
  show Cert.Sage.logSoftmax _ _ Q = Cert.Sage.logSoftmax _ _ Q
  exact congrArg (fun f => Cert.Sage.logSoftmax (Ideal.ofBits .f32 0xFF800000#32) f Q) (funext fun q' => sage1_blocks V c t p q' P hP)

/-- What point `t` writes back is block `t` of the output function. -/
theorem flushed1_eq (c : Dev nD) (t : Fin cfg1.N) :
    (dat1 V c).flushed 6 t = ((cfg1.win 6).blk t).view.read (Elt Ideal) (arr1 V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x40) hz, View.ld_unit_zero (S := S1x40) hz]
  funext j
  exact point1 V c t j (((cfg1.win 6).blk t).view.emb j) rfl rfl

/-- An index of the output array is in point `t`'s block iff each coordinate is in the block's range. -/
theorem mem_blk1 (t : Fin cfg1.N) (i : S100000x40.Idx) :
    i ∈ ((cfg1.win 6).blk t).view.set ↔ ∀ a : Fin 2, win1_6.index t a * S5000x40.size a ≤ (i a).val ∧ (i a).val < win1_6.index t a * S5000x40.size a + S5000x40.size a := by
  show i ∈ ((View.whole main_v44).slice (win1_6.rect t)).set ↔ _
  rw [View.set_slice_whole, Rect.mem_set_unit]
  exact Iff.rfl

/-- Every index of the output array is in the block of the point its row falls to: row `r` is in block `r / 5000`. -/
theorem cover1 (i : S100000x40.Idx) : ∃ t : Fin cfg1.N, (cfg1.win 6).flush t = true ∧ i ∈ ((cfg1.win 6).blk t).view.set := by
  have hi0 : (i 0).val < 100000 := (i 0).isLt
  have hi1 : (i 1).val < 40 := (i 1).isLt
  have ht : (i 0).val / 5000 < cfg1.N := by show _ < grid1.N; rw [N_1]; omega
  obtain ⟨e00, e01, e10, e11, e20, e21, e30, e31, e40, e41, e50, e51, e60, e61⟩ := idx1 ⟨(i 0).val / 5000, ht⟩
  refine ⟨⟨(i 0).val / 5000, ht⟩, flush1_6 _, ?_⟩
  rw [mem_blk1]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e60]
    show (i 0).val / 5000 * 5000 ≤ (i 0).val ∧ (i 0).val < (i 0).val / 5000 * 5000 + 5000
    omega
  | ⟨1, _⟩ =>
    show win1_6.index ⟨(i 0).val / 5000, ht⟩ (1 : Fin 2) * 40 ≤ (i 1).val ∧ (i 1).val < win1_6.index ⟨(i 0).val / 5000, ht⟩ (1 : Fin 2) * 40 + 40
    rw [e61]
    omega

/-- THE OUTPUT ARRAY after launch 1: the output function of the arrays the launch finds. -/
theorem final1 (c : Dev nD) : (dat1 V c).arrAt 6 cfg1.N = arr1 V c :=
  (dat1 V c).arrAt_eq_of_cover 6 (arr1 V c) (fun t _ => flushed1_eq V c t) (cover1)

end Cert.KernelIdeal.Blocks

end
-- ==== Proof.RefDefs.lean ====
/-
  The reference program's values, named.  Its @main is a chain of host operations; here each group of them is one
  function of the values it reads, so that the run can be stated in pieces and each piece read at an index:
  the two index vectors cut out of the edge list (sources, with negative entries wrapped around; destinations), the
  clamped in-degree, the sum of the neighbours' rows (a gather along the sources scattered and added along the
  destinations), a layer's affine part (the summed rows divided by the degree, times one weight matrix, plus the
  node's own rows times the other, plus the bias), the clamp at zero and the row-wise log-softmax.
-/
import proofs.«124584_j46772193853511_2_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Row `r` of the edge list as a vector of edge end points. -/
def srcRaw (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
def dstRaw (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The gather's start indices: a negative source index has the node count added. -/
def srcIdx (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The scatter's indices: the destinations as a column. -/
def dstIdx (d : (⟨S1600000, .i32⟩ : BufTy).Contents (Elt F)) : (⟨S1600000x1, .i32⟩ : BufTy).Contents (Elt F) :=
  broadcastInDim S1600000x1 ![0] bcast_S1600000_S1600000x1_0 d

/-- The in-degree of every node, clamped below at one. -/
def degClamped (d : (⟨S1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32)) (dstIdx d)
      (broadcastInDim S1600000 ![] bcast_S_S1600000 (constant S_ .f32 0x3F800000#32)))
    (broadcastInDim S100000 ![] bcast_S_S100000 (constant S_ .f32 0x3F800000#32))

/-- The neighbours' rows summed: 128 features. -/
def agg128 (s d : (⟨S1600000, .i32⟩ : BufTy).Contents (Elt F)) (X : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstIdx d)
    (Host.gather gather_S100000x128_S1600000x1_S1600000x128_1_0_n_n_0_1_1128 X (srcIdx s))

/-- The neighbours' rows summed: 64 features. -/
def agg64 (s d : (⟨S1600000, .i32⟩ : BufTy).Contents (Elt F)) (X : (⟨S100000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) (dstIdx d)
    (Host.gather gather_S100000x64_S1600000x1_S1600000x64_1_0_n_n_0_1_164 X (srcIdx s))

/-- The first layer's affine part. -/
def lin1 (S X : (⟨S100000x128, .f32⟩ : BufTy).Contents (Elt F)) (D : (⟨S100000, .f32⟩ : BufTy).Contents (Elt F))
    (Wl Wr : (⟨S128x64, .f32⟩ : BufTy).Contents (Elt F)) (b : (⟨S64, .f32⟩ : BufTy).Contents (Elt F)) :
    (⟨S100000x64, .f32⟩ : BufTy).Contents (Elt F) :=
  addf
    (addf
      (Host.dotGeneral dot_S100000x128_S128x64_S100000x64_1_0_0_1_n_n none
        (Host.divf S (broadcastInDim S100000x128 ![0, 1] bcast_S100000x1_S100000x128_0_1
          (broadcastInDim S100000x1 ![0] bcast_S100000_S100000x1_0 D))) Wl)
      (Host.dotGeneral dot_S100000x128_S128x64_S100000x64_1_0_0_1_n_n none X Wr))
    (broadcastInDim S100000x64 ![0, 1] bcast_S1x64_S100000x64_0_1 (broadcastInDim S1x64 ![1] bcast_S64_S1x64_1 b))

/-- The clamp at zero. -/
def relu (z : (⟨S100000x64, .f32⟩ : BufTy).Contents (Elt F)) : (⟨S100000x64, .f32⟩ : BufTy).Contents (Elt F) :=
  maximumf z (broadcastInDim S100000x64 ![] bcast_S_S100000x64 (constant S_ .f32 0x00000000#32))

/-- The second layer's affine part. -/
def lin2 (S X : (⟨S100000x64, .f32⟩ : BufTy).Contents (Elt F)) (D : (⟨S100000, .f32⟩ : BufTy).Contents (Elt F))
    (Wl Wr : (⟨S64x40, .f32⟩ : BufTy).Contents (Elt F)) (b : (⟨S40, .f32⟩ : BufTy).Contents (Elt F)) :
    (⟨S100000x40, .f32⟩ : BufTy).Contents (Elt F) :=
  addf
    (addf
      (Host.dotGeneral dot_S100000x64_S64x40_S100000x40_1_0_0_1_n_n none
        (Host.divf S (broadcastInDim S100000x64 ![0, 1] bcast_S100000x1_S100000x64_0_1
          (broadcastInDim S100000x1 ![0] bcast_S100000_S100000x1_0 D))) Wl)
      (Host.dotGeneral dot_S100000x64_S64x40_S100000x40_1_0_0_1_n_n none X Wr))
    (broadcastInDim S100000x40 ![0, 1] bcast_S1x40_S100000x40_0_1 (broadcastInDim S1x40 ![1] bcast_S40_S1x40_1 b))

/-- A row's maximum, as the reference takes it: the reduction from `−∞`, then once more against `−∞`. -/
def rowMaxVec (z : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x40_S100000_d1 h_S_)

/-- The rows shifted by their maxima. -/
def shifted (z : (⟨S100000x40, .f32⟩ : BufTy).Contents (Elt F)) : (⟨S100000x40, .f32⟩ : BufTy).Contents (Elt F) :=
  subf z (broadcastInDim S100000x40 ![0, 1] bcast_S100000x1_S100000x40_0_1
    (broadcastInDim S100000x1 ![0] bcast_S100000_S100000x1_0 (rowMaxVec z)))

/-- The row-wise log-softmax. -/
def logSoftmaxVec (z : (⟨S100000x40, .f32⟩ : BufTy).Contents (Elt F)) : (⟨S100000x40, .f32⟩ : BufTy).Contents (Elt F) :=
  subf (shifted z)
    (broadcastInDim S100000x40 ![0, 1] bcast_S100000x1_S100000x40_0_1
      (Host.log (broadcastInDim S100000x1 ![0] bcast_S100000_S100000x1_0
        (Host.reduceAdd (Host.exp (shifted z)) (constant S_ .f32 0x00000000#32) reducesTo_S100000x40_S100000_d1 h_S_))))

/-- The hidden layer. -/
def hidden (x0 : (⟨S100000x128, .f32⟩ : BufTy).Contents (Elt F)) (e : (⟨S2x1600000, .i32⟩ : BufTy).Contents (Elt F))
    (x2 x3 : (⟨S128x64, .f32⟩ : BufTy).Contents (Elt F)) (x4 : (⟨S64, .f32⟩ : BufTy).Contents (Elt F)) :
    (⟨S100000x64, .f32⟩ : BufTy).Contents (Elt F) :=
  relu (lin1 (agg128 (srcRaw e) (dstRaw e) x0) x0 (degClamped (dstRaw e)) x2 x3 x4)

/-- The whole reference as one function of its arguments. -/
def result (x0 : (⟨S100000x128, .f32⟩ : BufTy).Contents (Elt F)) (e : (⟨S2x1600000, .i32⟩ : BufTy).Contents (Elt F))
    (x2 x3 : (⟨S128x64, .f32⟩ : BufTy).Contents (Elt F)) (x4 : (⟨S64, .f32⟩ : BufTy).Contents (Elt F))
    (x5 x6 : (⟨S64x40, .f32⟩ : BufTy).Contents (Elt F)) (x7 : (⟨S40, .f32⟩ : BufTy).Contents (Elt F)) :
    (⟨S100000x40, .f32⟩ : BufTy).Contents (Elt F) :=
  logSoftmaxVec (lin2 (agg64 (srcRaw e) (dstRaw e) (hidden x0 e x2 x3 x4)) (hidden x0 e x2 x3 x4)
    (degClamped (dstRaw e)) x5 x6 x7)

end Cert.ReferenceIdeal.Hand

end
-- ==== Proof.KernelDefs.lean ====
/-
  The kernel program's values, named as functions of its arguments: the reciprocal clamped in-degree as the column
  both launches read, the hidden layer (first layer of the summed neighbour rows, clamped at zero) and the result
  (second layer of the hidden layer's summed neighbour rows, row-wise log-softmax).
-/
import proofs.«124584_j46772193853511_2_alg».proof.Proof.Gen.KernelIdeal
import proofs.«124584_j46772193853511_2_alg».proof.Proof.RefDefs
import proofs.«124584_j46772193853511_2_alg».proof.Proof.Spec
import Idealize.ShloMosaic.Lib.ValueIdx

noncomputable section

namespace Cert.KernelIdeal.HostValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The reciprocal of the clamped in-degree, as a column: what both launches read through their third window. -/
def invDeg (e : (⟨S2x1600000, .i32⟩ : BufTy).Contents (Elt Ideal)) : (⟨S100000x1, .f32⟩ : BufTy).Contents (Elt Ideal) :=
  shapeCast S100000x1
    (Host.divf (broadcastInDim S100000 ![] bcast_S_S100000 (constant (F := Ideal) S_ .f32 0x3F800000#32)) (Cert.ReferenceIdeal.Hand.degClamped (Cert.ReferenceIdeal.Hand.dstRaw e)))
    shapeCasts_S100000_S100000x1

/-- The hidden layer as the kernel program computes it, of the arguments. -/
def hiddenK (c : Dev nD) : S100000x64.Idx → EReal :=
  Cert.Sage.layer1 (N := 100000) (K := 128) (C := 64) (Cert.ReferenceIdeal.Hand.agg128 (Cert.ReferenceIdeal.Hand.srcRaw (m ((c.tc : Thread nD τ).loc main_arg1))) (Cert.ReferenceIdeal.Hand.dstRaw (m ((c.tc : Thread nD τ).loc main_arg1))) (m ((c.tc : Thread nD τ).loc main_arg0))) (m ((c.tc : Thread nD τ).loc main_arg0))
    (fun p => invDeg (m ((c.tc : Thread nD τ).loc main_arg1)) (ix2 p (0 : Fin 1))) (m ((c.tc : Thread nD τ).loc main_arg2)) (m ((c.tc : Thread nD τ).loc main_arg3))
    (fun q => shapeCast S1x64 (m ((c.tc : Thread nD τ).loc main_arg4)) shapeCasts_S64_S1x64 (ix2 (0 : Fin 1) q)) (Ideal.ofBits .f32 0x00000000#32)

/-- The result as the kernel program computes it, of the arguments. -/
def resultK (c : Dev nD) : S100000x40.Idx → EReal :=
  Cert.Sage.layer2 (N := 100000) (K := 64) (C := 40) (Cert.ReferenceIdeal.Hand.agg64 (Cert.ReferenceIdeal.Hand.srcRaw (m ((c.tc : Thread nD τ).loc main_arg1))) (Cert.ReferenceIdeal.Hand.dstRaw (m ((c.tc : Thread nD τ).loc main_arg1))) (hiddenK m c)) (hiddenK m c)
    (fun p => invDeg (m ((c.tc : Thread nD τ).loc main_arg1)) (ix2 p (0 : Fin 1))) (m ((c.tc : Thread nD τ).loc main_arg5)) (m ((c.tc : Thread nD τ).loc main_arg6))
    (fun q => shapeCast S1x40 (m ((c.tc : Thread nD τ).loc main_arg7)) shapeCasts_S40_S1x40 (ix2 (0 : Fin 1) q)) (Ideal.ofBits .f32 0xFF800000#32)

end Cert.KernelIdeal.HostValue

end
-- ==== Proof.KernelValue.lean ====
/-
  The kernel program's result array read back to its arguments.  Between the launch memory and the first launch a
  stretch of host operations cuts the edge list into sources and destinations, counts the clamped in-degrees and
  takes their reciprocals, gathers and sums the neighbours' rows, and re-lays the bias; the first launch then leaves
  the hidden layer (KernelBlocks); a second stretch gathers and sums the hidden layer's rows; the second launch
  leaves the result.  Changes of float format are the identity on the extended reals, so the gathered-and-summed
  rows are the same function of the features whether or not the features pass through a narrower format.
-/
import proofs.«124584_j46772193853511_2_alg».proof.Proof.KernelBlocks
import proofs.«124584_j46772193853511_2_alg».proof.Proof.KernelDefs
import Idealize.ShloMosaic.Lib.StableHlo.Run
import Idealize.ShloMosaic.Lib.ValueLayout

set_option maxRecDepth 16384

noncomputable section

namespace Cert.KernelIdeal.HostValue

open Cert.KernelIdeal Cert.KernelIdeal.Gen Idealize.ShloMosaic Idealize.ShloMosaic.TcCoe Idealize.SL.Sem Idealize.ShloMosaic.ValueIdx
open Cert.Gcn.Layout

variable (m : (ℓ : Loc nD τ sig) → Buf (Elt Ideal) ℓ) (ρ : Dev nD → PrngReg)

/-! ## The first stretch: what the first launch finds -/

theorem in0_x (c : Dev nD) : V1 m ρ c main_arg0 = (m ((c.tc : Thread nD τ).loc main_arg0)) := by
  show StableHlo.after hostOps0 (W0 m ρ c) (Proc.devRef .tc main_arg0) = _
  after_results_simp <;> rfl
theorem in0_src (c : Dev nD) : W1 m ρ c (Proc.devRef .tc main_v1) = Cert.ReferenceIdeal.Hand.srcRaw (m ((c.tc : Thread nD τ).loc main_arg1)) := by
  show StableHlo.after hostOps0 (W0 m ρ c) (Proc.devRef .tc main_v1) = _
  after_results_simp <;> rfl
theorem in0_dst (c : Dev nD) : W1 m ρ c (Proc.devRef .tc main_v3) = Cert.ReferenceIdeal.Hand.dstRaw (m ((c.tc : Thread nD τ).loc main_arg1)) := by
  show StableHlo.after hostOps0 (W0 m ρ c) (Proc.devRef .tc main_v3) = _
  after_results_simp <;> rfl
theorem in0_agg (c : Dev nD) : V1 m ρ c main_v24 = Cert.ReferenceIdeal.Hand.agg128 (Cert.ReferenceIdeal.Hand.srcRaw (m ((c.tc : Thread nD τ).loc main_arg1))) (Cert.ReferenceIdeal.Hand.dstRaw (m ((c.tc : Thread nD τ).loc main_arg1))) (m ((c.tc : Thread nD τ).loc main_arg0)) := by
  show StableHlo.after hostOps0 (W0 m ρ c) (Proc.devRef .tc main_v24) = _
  after_results_simp <;> rfl
theorem in0_inv (c : Dev nD) : V1 m ρ c main_v12 = invDeg (m ((c.tc : Thread nD τ).loc main_arg1)) := by
  show StableHlo.after hostOps0 (W0 m ρ c) (Proc.devRef .tc main_v12) = _
  after_results_simp <;> rfl
theorem in0_wl (c : Dev nD) : V1 m ρ c main_v25 = (m ((c.tc : Thread nD τ).loc main_arg2)) := by
  show StableHlo.after hostOps0 (W0 m ρ c) (Proc.devRef .tc main_v25) = _
  after_results_simp <;> rfl
theorem in0_wr (c : Dev nD) : V1 m ρ c main_v26 = (m ((c.tc : Thread nD τ).loc main_arg3)) := by
  show StableHlo.after hostOps0 (W0 m ρ c) (Proc.devRef .tc main_v26) = _
  after_results_simp <;> rfl
theorem in0_b (c : Dev nD) : V1 m ρ c main_v27 = shapeCast S1x64 (m ((c.tc : Thread nD τ).loc main_arg4)) shapeCasts_S64_S1x64 := by
  show StableHlo.after hostOps0 (W0 m ρ c) (Proc.devRef .tc main_v27) = _
  after_results_simp <;> rfl
theorem in0_w2l (c : Dev nD) : W1 m ρ c (Proc.devRef .tc main_arg5) = (m ((c.tc : Thread nD τ).loc main_arg5)) := by
  show StableHlo.after hostOps0 (W0 m ρ c) (Proc.devRef .tc main_arg5) = _
  after_results_simp <;> rfl
theorem in0_w2r (c : Dev nD) : W1 m ρ c (Proc.devRef .tc main_arg6) = (m ((c.tc : Thread nD τ).loc main_arg6)) := by
  show StableHlo.after hostOps0 (W0 m ρ c) (Proc.devRef .tc main_arg6) = _
  after_results_simp <;> rfl
theorem in0_b2 (c : Dev nD) : W1 m ρ c (Proc.devRef .tc main_arg7) = (m ((c.tc : Thread nD τ).loc main_arg7)) := by
  show StableHlo.after hostOps0 (W0 m ρ c) (Proc.devRef .tc main_arg7) = _
  after_results_simp <;> rfl

/-- After the first launch its output array is the hidden layer. -/
theorem out0 (c : Dev nD) : W2 m ρ c (Proc.devRef .tc main_v28) = hiddenK m c := by
  refine ((W2_arr m ρ c 6).trans (Blocks.final0 (V1 m ρ) c)).trans ?_
  unfold Blocks.arr0 hiddenK
  rw [in0_x, in0_agg, in0_inv, in0_wl, in0_wr, in0_b]

/-! ## The second stretch: what the second launch finds -/

theorem mid_src (c : Dev nD) : W2 m ρ c (Proc.devRef .tc main_v1) = Cert.ReferenceIdeal.Hand.srcRaw (m ((c.tc : Thread nD τ).loc main_arg1)) :=
  (W2_of_ne m ρ c main_v1 (by decide)).trans (in0_src m ρ c)
theorem mid_dst (c : Dev nD) : W2 m ρ c (Proc.devRef .tc main_v3) = Cert.ReferenceIdeal.Hand.dstRaw (m ((c.tc : Thread nD τ).loc main_arg1)) :=
  (W2_of_ne m ρ c main_v3 (by decide)).trans (in0_dst m ρ c)
theorem mid_inv (c : Dev nD) : W2 m ρ c (Proc.devRef .tc main_v12) = invDeg (m ((c.tc : Thread nD τ).loc main_arg1)) :=
  ((W2_arr m ρ c 2).trans (((dat0 (V1 m ρ) c).arrAt_in 2 rfl _).trans (A_eq0 (V1 m ρ) c 2))).trans (in0_inv m ρ c)
theorem mid_w2l (c : Dev nD) : W2 m ρ c (Proc.devRef .tc main_arg5) = (m ((c.tc : Thread nD τ).loc main_arg5)) :=
  (W2_of_ne m ρ c main_arg5 (by decide)).trans (in0_w2l m ρ c)
theorem mid_w2r (c : Dev nD) : W2 m ρ c (Proc.devRef .tc main_arg6) = (m ((c.tc : Thread nD τ).loc main_arg6)) :=
  (W2_of_ne m ρ c main_arg6 (by decide)).trans (in0_w2r m ρ c)
theorem mid_b2 (c : Dev nD) : W2 m ρ c (Proc.devRef .tc main_arg7) = (m ((c.tc : Thread nD τ).loc main_arg7)) :=
  (W2_of_ne m ρ c main_arg7 (by decide)).trans (in0_b2 m ρ c)

/-- The second stretch read from ANY contents `W` of the buffers at its start: the gathered-and-summed rows of
    whatever the hidden layer's buffer holds, the weights and the bias re-laid, everything else as it was. -/
theorem s1_h (W : Valuation τ sig (Elt Ideal)) :
    StableHlo.after hostOps1 W (Proc.devRef .tc main_v28) = W (Proc.devRef .tc main_v28) := by
  after_results_simp <;> rfl
theorem s1_agg (W : Valuation τ sig (Elt Ideal)) :
    StableHlo.after hostOps1 W (Proc.devRef .tc main_v40)
      = Cert.ReferenceIdeal.Hand.agg64 (W (Proc.devRef .tc main_v1)) (W (Proc.devRef .tc main_v3)) (W (Proc.devRef .tc main_v28)) := by
  after_results_simp <;> rfl
theorem s1_inv (W : Valuation τ sig (Elt Ideal)) :
    StableHlo.after hostOps1 W (Proc.devRef .tc main_v12) = W (Proc.devRef .tc main_v12) := by
  after_results_simp <;> rfl
theorem s1_wl (W : Valuation τ sig (Elt Ideal)) :
    StableHlo.after hostOps1 W (Proc.devRef .tc main_v41) = W (Proc.devRef .tc main_arg5) := by
  after_results_simp <;> rfl
theorem s1_wr (W : Valuation τ sig (Elt Ideal)) :
    StableHlo.after hostOps1 W (Proc.devRef .tc main_v42) = W (Proc.devRef .tc main_arg6) := by
  after_results_simp <;> rfl
theorem s1_b (W : Valuation τ sig (Elt Ideal)) :
    StableHlo.after hostOps1 W (Proc.devRef .tc main_v43) = shapeCast S1x40 (W (Proc.devRef .tc main_arg7)) shapeCasts_S40_S1x40 := by
  after_results_simp <;> rfl

theorem in1_h (c : Dev nD) : V3 m ρ c main_v28 = hiddenK m c :=
  (s1_h (W2 m ρ c)).trans (out0 m ρ c)
theorem in1_agg (c : Dev nD) : V3 m ρ c main_v40 = Cert.ReferenceIdeal.Hand.agg64 (Cert.ReferenceIdeal.Hand.srcRaw (m ((c.tc : Thread nD τ).loc main_arg1))) (Cert.ReferenceIdeal.Hand.dstRaw (m ((c.tc : Thread nD τ).loc main_arg1))) (hiddenK m c) := by
  refine (s1_agg (W2 m ρ c)).trans ?_
  rw [mid_src, mid_dst, out0]
theorem in1_inv (c : Dev nD) : V3 m ρ c main_v12 = invDeg (m ((c.tc : Thread nD τ).loc main_arg1)) :=
  (s1_inv (W2 m ρ c)).trans (mid_inv m ρ c)
theorem in1_wl (c : Dev nD) : V3 m ρ c main_v41 = (m ((c.tc : Thread nD τ).loc main_arg5)) :=
  (s1_wl (W2 m ρ c)).trans (mid_w2l m ρ c)
theorem in1_wr (c : Dev nD) : V3 m ρ c main_v42 = (m ((c.tc : Thread nD τ).loc main_arg6)) :=
  (s1_wr (W2 m ρ c)).trans (mid_w2r m ρ c)
theorem in1_b (c : Dev nD) : V3 m ρ c main_v43 = shapeCast S1x40 (m ((c.tc : Thread nD τ).loc main_arg7)) shapeCasts_S40_S1x40 := by
  refine (s1_b (W2 m ρ c)).trans ?_
  rw [mid_b2]

/-- After the second launch the result array is `resultK`. -/
theorem out1 (c : Dev nD) : W4 m ρ c (Proc.devRef .tc main_v44) = resultK m c := by
  refine ((W4_arr m ρ c 6).trans (Blocks.final1 (V3 m ρ) c)).trans ?_
  unfold Blocks.arr1 resultK
  rw [in1_h, in1_agg, in1_inv, in1_wl, in1_wr, in1_b]

end Cert.KernelIdeal.HostValue

end
-- ==== Proof.RefRun.lean ====
/-
  The reference program's run, staged.

  The reference's @main is a straight line of 84 host operations; what a buffer holds after a line of operations is a
  fold over the line: each operation rewrites the buffer it writes and leaves every other buffer as it was.  The fold
  over a concatenation is the fold over the second part started from the fold over the first, so the line can be run
  in stages, each from an ARBITRARY valuation: what the earlier stages left is then an opaque value, and no stage ever
  has to write out the whole composed term (in which the hidden layer is read twice and the log-softmax reads its
  argument four times).

    stage A (operations 1–38): the two index vectors cut out of the edge list, and the hidden layer
        relu (lin1 (neighbour sums of the features) features degrees W₁ˡ W₁ʳ b₁);
    stage B (operations 39–69): the second layer's affine part, read off the hidden layer and the two index vectors,
        lin2 (neighbour sums of the hidden layer) hidden degrees W₂ˡ W₂ʳ b₂;
    stage C (operations 70–84, the inlined log-softmax), itself in steps: the row maxima M (a fold of the maximum
        from −∞, once more against −∞), the shifted rows s = z − M, the row sums Σ exp s, and s − log Σ exp s.

  Composed, the result buffer holds Hand.result of the eight arguments' launch contents, and no operation writes an
  argument.
-/
import proofs.«124584_j46772193853511_2_alg».proof.Proof.RefDefs
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 84 operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    binary main_v22 main_arg2 main_v23 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_arg0 main_arg3 main_v24 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v23 main_v24 main_v25 (addf : (⟨S100000x64, .f32⟩ : BufTy).Contents (Elt F) → (⟨S100000x64, .f32⟩ : BufTy).Contents (Elt F) → (⟨S100000x64, .f32⟩ : BufTy).Contents (Elt F)),
    unary main_arg4 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v25 main_v27 main_v28 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v28) (TRef.of (T := ⟨S100000x64, .f32⟩) main_call0_v0) (TRef.of (T := ⟨S100000x64, .f32⟩) main_v29) maximumf,
    nullary main_c_4 (constantI S_ 32 0#32),
    unary main_c_4 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_6 (constant S_ .f32 0x00000000#32),
    unary main_cst_6 main_v37 (broadcastInDim S100000x64 ![] bcast_S_S100000x64 : (⟨S_, .f32⟩ : BufTy).Contents (Elt F) → (⟨S100000x64, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_7 (constant S_ .f32 0x3F800000#32),
    unary main_cst_7 main_v40 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v41 (broadcastInDim S100000 ![] bcast_S_S100000 : (⟨S_, .f32⟩ : BufTy).Contents (Elt F) → (⟨S100000, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v43 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x64 ![0, 1] bcast_S100000x1_S100000x64_0_1 : (⟨S100000x1, .f32⟩ : BufTy).Contents (Elt F) → (⟨S100000x64, .f32⟩ : BufTy).Contents (Elt F)),
    binary main_v39 main_v47 main_v48 (Host.divf : (⟨S100000x64, .f32⟩ : BufTy).Contents (Elt F) → (⟨S100000x64, .f32⟩ : BufTy).Contents (Elt F) → (⟨S100000x64, .f32⟩ : BufTy).Contents (Elt F)),
    binary main_v48 main_arg5 main_v49 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    binary main_v29 main_arg6 main_v50 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    binary main_v49 main_v50 main_v51 (addf : (⟨S100000x40, .f32⟩ : BufTy).Contents (Elt F) → (⟨S100000x40, .f32⟩ : BufTy).Contents (Elt F) → (⟨S100000x40, .f32⟩ : BufTy).Contents (Elt F)),
    unary main_arg7 main_v52 (broadcastInDim S1x40 ![1] bcast_S40_S1x40_1 : (⟨S40, .f32⟩ : BufTy).Contents (Elt F) → (⟨S1x40, .f32⟩ : BufTy).Contents (Elt F)),
    unary main_v52 main_v53 (broadcastInDim S100000x40 ![0, 1] bcast_S1x40_S100000x40_0_1 : (⟨S1x40, .f32⟩ : BufTy).Contents (Elt F) → (⟨S100000x40, .f32⟩ : BufTy).Contents (Elt F)),
    binary main_v51 main_v53 main_v54 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v55) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The line in stages -/

/-- Operations 1–38: through the hidden layer. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    binary main_v22 main_arg2 main_v23 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_arg0 main_arg3 main_v24 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v23 main_v24 main_v25 (addf : (⟨S100000x64, .f32⟩ : BufTy).Contents (Elt F) → (⟨S100000x64, .f32⟩ : BufTy).Contents (Elt F) → (⟨S100000x64, .f32⟩ : BufTy).Contents (Elt F)),
    unary main_arg4 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v25 main_v27 main_v28 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v28) (TRef.of (T := ⟨S100000x64, .f32⟩) main_call0_v0) (TRef.of (T := ⟨S100000x64, .f32⟩) main_v29) maximumf ]

/-- Operations 39–69: the second layer's affine part. -/
abbrev opsB : List (HloOp τ sig (Elt F)) :=
  [ nullary main_c_4 (constantI S_ 32 0#32),
    unary main_c_4 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_6 (constant S_ .f32 0x00000000#32),
    unary main_cst_6 main_v37 (broadcastInDim S100000x64 ![] bcast_S_S100000x64 : (⟨S_, .f32⟩ : BufTy).Contents (Elt F) → (⟨S100000x64, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_7 (constant S_ .f32 0x3F800000#32),
    unary main_cst_7 main_v40 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v41 (broadcastInDim S100000 ![] bcast_S_S100000 : (⟨S_, .f32⟩ : BufTy).Contents (Elt F) → (⟨S100000, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v43 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x64 ![0, 1] bcast_S100000x1_S100000x64_0_1 : (⟨S100000x1, .f32⟩ : BufTy).Contents (Elt F) → (⟨S100000x64, .f32⟩ : BufTy).Contents (Elt F)),
    binary main_v39 main_v47 main_v48 (Host.divf : (⟨S100000x64, .f32⟩ : BufTy).Contents (Elt F) → (⟨S100000x64, .f32⟩ : BufTy).Contents (Elt F) → (⟨S100000x64, .f32⟩ : BufTy).Contents (Elt F)),
    binary main_v48 main_arg5 main_v49 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    binary main_v29 main_arg6 main_v50 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    binary main_v49 main_v50 main_v51 (addf : (⟨S100000x40, .f32⟩ : BufTy).Contents (Elt F) → (⟨S100000x40, .f32⟩ : BufTy).Contents (Elt F) → (⟨S100000x40, .f32⟩ : BufTy).Contents (Elt F)),
    unary main_arg7 main_v52 (broadcastInDim S1x40 ![1] bcast_S40_S1x40_1 : (⟨S40, .f32⟩ : BufTy).Contents (Elt F) → (⟨S1x40, .f32⟩ : BufTy).Contents (Elt F)),
    unary main_v52 main_v53 (broadcastInDim S100000x40 ![0, 1] bcast_S1x40_S100000x40_0_1 : (⟨S1x40, .f32⟩ : BufTy).Contents (Elt F) → (⟨S100000x40, .f32⟩ : BufTy).Contents (Elt F)),
    binary main_v51 main_v53 main_v54 (addf : (⟨S100000x40, .f32⟩ : BufTy).Contents (Elt F) → (⟨S100000x40, .f32⟩ : BufTy).Contents (Elt F) → (⟨S100000x40, .f32⟩ : BufTy).Contents (Elt F)) ]

/-- Operations 70–71 (of the inlined log-softmax). -/
abbrev opsC1 : List (HloOp τ sig (Elt F)) :=
  [ TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_) ]

/-- Operations 72–74 (of the inlined log-softmax). -/
abbrev opsC2 : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf ]

/-- Operations 75–77 (of the inlined log-softmax). -/
abbrev opsC3 : List (HloOp τ sig (Elt F)) :=
  [ TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf ]

/-- Operations 78–80 (of the inlined log-softmax). -/
abbrev opsC4 : List (HloOp τ sig (Elt F)) :=
  [ TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_) ]

/-- Operations 81–84 (of the inlined log-softmax). -/
abbrev opsC5 : List (HloOp τ sig (Elt F)) :=
  [ TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v55) subf ]

/-- The log-softmax's operations. -/
abbrev opsC : List (HloOp τ sig (Elt F)) := opsC1 ++ (opsC2 ++ (opsC3 ++ (opsC4 ++ opsC5)))

set_option maxRecDepth 8192 in
theorem ops_split : (ops : List (HloOp τ sig (Elt F))) = opsA ++ (opsB ++ opsC) := rfl

/-- The fold over a concatenation: the second part's fold started from the first part's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## Stage A -/

theorem stageA_v1 (W : Valuation τ sig (Elt F)) :
    after opsA W (Proc.devRef .tc main_v1) = Hand.srcRaw (W (Proc.devRef .tc main_arg1)) := by
  after_results_simp
  rfl

theorem stageA_v3 (W : Valuation τ sig (Elt F)) :
    after opsA W (Proc.devRef .tc main_v3) = Hand.dstRaw (W (Proc.devRef .tc main_arg1)) := by
  after_results_simp
  rfl

theorem stageA_arg5 (W : Valuation τ sig (Elt F)) :
    after opsA W (Proc.devRef .tc main_arg5) = W (Proc.devRef .tc main_arg5) := by
  after_results_simp

theorem stageA_arg6 (W : Valuation τ sig (Elt F)) :
    after opsA W (Proc.devRef .tc main_arg6) = W (Proc.devRef .tc main_arg6) := by
  after_results_simp

theorem stageA_arg7 (W : Valuation τ sig (Elt F)) :
    after opsA W (Proc.devRef .tc main_arg7) = W (Proc.devRef .tc main_arg7) := by
  after_results_simp

set_option maxRecDepth 8192 in
theorem stageA_v29 (W : Valuation τ sig (Elt F)) :
    after opsA W (Proc.devRef .tc main_v29)
      = Hand.hidden (W (Proc.devRef .tc main_arg0)) (W (Proc.devRef .tc main_arg1)) (W (Proc.devRef .tc main_arg2))
          (W (Proc.devRef .tc main_arg3)) (W (Proc.devRef .tc main_arg4)) := by
  after_results_simp
  simp only [cast_eq]
  rfl

/-! ## Stage B -/

set_option maxRecDepth 8192 in
theorem stageB_v54 (W : Valuation τ sig (Elt F)) :
    after opsB W (Proc.devRef .tc main_v54)
      = Hand.lin2 (Hand.agg64 (W (Proc.devRef .tc main_v1)) (W (Proc.devRef .tc main_v3)) (W (Proc.devRef .tc main_v29)))
          (W (Proc.devRef .tc main_v29)) (Hand.degClamped (W (Proc.devRef .tc main_v3)))
          (W (Proc.devRef .tc main_arg5)) (W (Proc.devRef .tc main_arg6)) (W (Proc.devRef .tc main_arg7)) := by
  after_results_simp
  rfl

/-! ## Stage C -/

/-- A row's maximum folded from −∞. -/
def rowFold (z : (⟨S100000x40, .f32⟩ : BufTy).Contents (Elt F)) : (⟨S100000, .f32⟩ : BufTy).Contents (Elt F) :=
  Host.reduce FloatOps.maximumf z (constant S_ .f32 0xFF800000#32) reducesTo_S100000x40_S100000_d1 h_S_

/-- Once more against −∞. -/
def clampBelow (v : (⟨S100000, .f32⟩ : BufTy).Contents (Elt F)) : (⟨S100000, .f32⟩ : BufTy).Contents (Elt F) :=
  maximumf (broadcastInDim S100000 ![] bcast_S_S100000 (constant S_ .f32 0xFF800000#32)) v

/-- The rows shifted by a vector of row values. -/
def shiftBy (z : (⟨S100000x40, .f32⟩ : BufTy).Contents (Elt F)) (M : (⟨S100000, .f32⟩ : BufTy).Contents (Elt F)) : (⟨S100000x40, .f32⟩ : BufTy).Contents (Elt F) :=
  subf z (broadcastInDim S100000x40 ![0, 1] bcast_S100000x1_S100000x40_0_1
    (broadcastInDim S100000x1 ![0] bcast_S100000_S100000x1_0 M))

/-- The row sums of the exponentials. -/
def sumExp (s : (⟨S100000x40, .f32⟩ : BufTy).Contents (Elt F)) : (⟨S100000, .f32⟩ : BufTy).Contents (Elt F) :=
  Host.reduceAdd (Host.exp s) (constant S_ .f32 0x00000000#32) reducesTo_S100000x40_S100000_d1 h_S_

/-- The rows less the logarithm of a vector of row values. -/
def subLog (s : (⟨S100000x40, .f32⟩ : BufTy).Contents (Elt F)) (t : (⟨S100000, .f32⟩ : BufTy).Contents (Elt F)) : (⟨S100000x40, .f32⟩ : BufTy).Contents (Elt F) :=
  subf s (broadcastInDim S100000x40 ![0, 1] bcast_S100000x1_S100000x40_0_1
    (Host.log (broadcastInDim S100000x1 ![0] bcast_S100000_S100000x1_0 t)))

theorem rowMaxVec_eq (z : (⟨S100000x40, .f32⟩ : BufTy).Contents (Elt F)) : Hand.rowMaxVec z = clampBelow (rowFold z) := rfl
theorem shifted_eq (z : (⟨S100000x40, .f32⟩ : BufTy).Contents (Elt F)) : Hand.shifted z = shiftBy z (Hand.rowMaxVec z) := rfl
theorem logSoftmaxVec_eq (z : (⟨S100000x40, .f32⟩ : BufTy).Contents (Elt F)) :
    Hand.logSoftmaxVec z = subLog (Hand.shifted z) (sumExp (Hand.shifted z)) := rfl

theorem stageC1_v0 (W : Valuation τ sig (Elt F)) :
    after opsC1 W (Proc.devRef .tc main_call1_v0) = rowFold (W (Proc.devRef .tc main_v54)) := by
  after_results_simp <;> simp only [cast_eq] <;> rfl

theorem stageC1_v54 (W : Valuation τ sig (Elt F)) :
    after opsC1 W (Proc.devRef .tc main_v54) = W (Proc.devRef .tc main_v54) := by
  after_results_simp

theorem stageC2_v2 (W : Valuation τ sig (Elt F)) :
    after opsC2 W (Proc.devRef .tc main_call1_v2) = clampBelow (W (Proc.devRef .tc main_call1_v0)) := by
  after_results_simp <;> simp only [cast_eq] <;> rfl

theorem stageC2_v54 (W : Valuation τ sig (Elt F)) :
    after opsC2 W (Proc.devRef .tc main_v54) = W (Proc.devRef .tc main_v54) := by
  after_results_simp

theorem stageC3_v5 (W : Valuation τ sig (Elt F)) :
    after opsC3 W (Proc.devRef .tc main_call1_v5) = shiftBy (W (Proc.devRef .tc main_v54)) (W (Proc.devRef .tc main_call1_v2)) := by
  after_results_simp <;> simp only [cast_eq] <;> rfl

theorem stageC4_v7 (W : Valuation τ sig (Elt F)) :
    after opsC4 W (Proc.devRef .tc main_call1_v7) = sumExp (W (Proc.devRef .tc main_call1_v5)) := by
  after_results_simp <;> simp only [cast_eq] <;> rfl

theorem stageC4_v5 (W : Valuation τ sig (Elt F)) :
    after opsC4 W (Proc.devRef .tc main_call1_v5) = W (Proc.devRef .tc main_call1_v5) := by
  after_results_simp

theorem stageC5_v55 (W : Valuation τ sig (Elt F)) :
    after opsC5 W (Proc.devRef .tc main_v55) = subLog (W (Proc.devRef .tc main_call1_v5)) (W (Proc.devRef .tc main_call1_v7)) := by
  after_results_simp <;> simp only [cast_eq] <;> rfl

/-- The log-softmax's operations, run from any valuation, leave the log-softmax of what `main_v54` held. -/
theorem stageC_v55 (W : Valuation τ sig (Elt F)) :
    after opsC W (Proc.devRef .tc main_v55) = Hand.logSoftmaxVec (W (Proc.devRef .tc main_v54)) := by
  rw [after_append, after_append, after_append, after_append, stageC5_v55, stageC4_v7, stageC4_v5, stageC3_v5,
    stageC2_v2, stageC2_v54, stageC1_v0, stageC1_v54, logSoftmaxVec_eq, shifted_eq, rowMaxVec_eq]

/-! ## The stages composed -/

set_option maxRecDepth 8192 in
/-- After the whole line the result buffer holds the reference function of the arguments' contents. -/
theorem after_ops_v55 (V : Valuation τ sig (Elt F)) :
    after ops V (Proc.devRef .tc main_v55)
      = Hand.result (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_split, after_append, after_append, stageC_v55, stageB_v54, stageA_v29, stageA_v1, stageA_v3,
    stageA_arg5, stageA_arg6, stageA_arg7]
  rfl

set_option maxRecDepth 8192 in
set_option maxHeartbeats 33600000 in
/-- On every device, for any float values, from any memory with zero counters: every weakly fair execution of
    @main terminates with the result buffer at the reference function of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = Hand.result (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v55).trans (after_ops_v55 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.HandRun

end
-- ==== Proof.RefValue.lean ====
/-
  The reference's operations read at an index, over the extended reals.  A product of a [rows, K] array with a
  [K, cols] matrix at (p, q) is the sum over k of the left operand at (p, k) times the right at (k, q); a column
  broadcast along the features reads the column's entry at the row, a row broadcast down the rows reads the row's
  entry at the feature, a broadcast scalar reads the scalar; a maximum, sum, difference or quotient at an index is
  that of the elements; a reduction over the features of a row is the fold (for the maximum) or the sum over that
  row's entries.  Put together: a layer's affine part at (p, q) is the layer formula with the reciprocal of the
  clamped degree as the row factor.  The one law used is that dividing by a divisor that is not zero is multiplying
  by its reciprocal; the clamped degree is a maximum with the literal one, hence at least one, hence not zero.
-/
import proofs.«124584_j46772193853511_2_alg».proof.Proof.RefDefs
import proofs.«124584_j46772193853511_2_alg».proof.Proof.Spec
import Idealize.ShloMosaic.Lib.ValueIdx
import Idealize.ShloMosaic.Lib.Pipeline.Value
import Idealize.ShloMosaic.PureOps.Ideal.Laws

noncomputable section

namespace Cert.ReferenceIdeal.HandValue

open Cert.ReferenceIdeal Cert.ReferenceIdeal.Gen Cert.ReferenceIdeal.Hand Idealize.ShloMosaic Idealize.ShloMosaic.ValueIdx
open scoped BigOperators

/-! ## A matrix product at an index -/

theorem dot1_l0 (i : S100000x64.Idx) (g : dot_S100000x128_S128x64_S100000x64_1_0_0_1_n_n.contr.Idx) : (dot_S100000x128_S128x64_S100000x64_1_0_0_1_n_n.lhsIdx i g 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl
theorem dot1_l1 (i : S100000x64.Idx) (g : dot_S100000x128_S128x64_S100000x64_1_0_0_1_n_n.contr.Idx) : (dot_S100000x128_S128x64_S100000x64_1_0_0_1_n_n.lhsIdx i g 1).val = (g ⟨0, by decide⟩).val :=
  dot_S100000x128_S128x64_S100000x64_1_0_0_1_n_n.lhsIdx_val_of_single rfl i g
theorem dot1_r0 (i : S100000x64.Idx) (g : dot_S100000x128_S128x64_S100000x64_1_0_0_1_n_n.contr.Idx) : (dot_S100000x128_S128x64_S100000x64_1_0_0_1_n_n.rhsIdx i g 0).val = (g ⟨0, by decide⟩).val :=
  dot_S100000x128_S128x64_S100000x64_1_0_0_1_n_n.rhsIdx_val_of_single rfl i g
theorem dot1_r1 (i : S100000x64.Idx) (g : dot_S100000x128_S128x64_S100000x64_1_0_0_1_n_n.contr.Idx) : (dot_S100000x128_S128x64_S100000x64_1_0_0_1_n_n.rhsIdx i g 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

/-- The product of a [100000, 128] array with a [128, 64] matrix at `(p, q)`: the row-by-column sum over the
    contracted axis. -/
theorem dot1_apply (l : FVec Ideal S100000x128 .f32) (r : FVec Ideal S128x64 .f32) (p : Fin 100000) (q : Fin 64) :
    Host.dotGeneral (F := Ideal) dot_S100000x128_S128x64_S100000x64_1_0_0_1_n_n none l r (ix2 p q) = ∑ k : Fin 128, l (ix2 p k) * r (ix2 k q) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q) ((contrEquiv1 dot_S100000x128_S128x64_S100000x64_1_0_0_1_n_n 128 rfl rfl).symm k) = ix2 p k :=
    funext fun a => Fin.ext (by
      match a with
      | ⟨0, _⟩ => exact dot1_l0 _ _
      | ⟨1, _⟩ => exact (dot1_l1 _ _).trans hk)
  have er : dot_S100000x128_S128x64_S100000x64_1_0_0_1_n_n.rhsIdx (ix2 p q) ((contrEquiv1 dot_S100000x128_S128x64_S100000x64_1_0_0_1_n_n 128 rfl rfl).symm k) = ix2 k q :=
    funext fun a => Fin.ext (by
      match a with
      | ⟨0, _⟩ => exact (dot1_r0 _ _).trans hk
      | ⟨1, _⟩ => exact dot1_r1 _ _)
  rw [el, er]

theorem dot2_l0 (i : S100000x40.Idx) (g : dot_S100000x64_S64x40_S100000x40_1_0_0_1_n_n.contr.Idx) : (dot_S100000x64_S64x40_S100000x40_1_0_0_1_n_n.lhsIdx i g 0).val = (i 0).val := by
  unfold DotDims.lhsIdx
  rw [dif_neg (show ¬(0 : Fin S100000x64.rank) ∈ dot_S100000x64_S64x40_S100000x40_1_0_0_1_n_n.lhsBatch by decide),
    dif_pos (show (0 : Fin S100000x64.rank) ∈ dot_S100000x64_S64x40_S100000x40_1_0_0_1_n_n.lhsNonContracting by decide)]
  rfl
theorem dot2_l1 (i : S100000x40.Idx) (g : dot_S100000x64_S64x40_S100000x40_1_0_0_1_n_n.contr.Idx) : (dot_S100000x64_S64x40_S100000x40_1_0_0_1_n_n.lhsIdx i g 1).val = (g ⟨0, by decide⟩).val :=
  dot_S100000x64_S64x40_S100000x40_1_0_0_1_n_n.lhsIdx_val_of_single rfl i g
theorem dot2_r0 (i : S100000x40.Idx) (g : dot_S100000x64_S64x40_S100000x40_1_0_0_1_n_n.contr.Idx) : (dot_S100000x64_S64x40_S100000x40_1_0_0_1_n_n.rhsIdx i g 0).val = (g ⟨0, by decide⟩).val :=
  dot_S100000x64_S64x40_S100000x40_1_0_0_1_n_n.rhsIdx_val_of_single rfl i g
theorem dot2_r1 (i : S100000x40.Idx) (g : dot_S100000x64_S64x40_S100000x40_1_0_0_1_n_n.contr.Idx) : (dot_S100000x64_S64x40_S100000x40_1_0_0_1_n_n.rhsIdx i g 1).val = (i 1).val := by
  unfold DotDims.rhsIdx
  rw [dif_neg (show ¬(1 : Fin S64x40.rank) ∈ dot_S100000x64_S64x40_S100000x40_1_0_0_1_n_n.rhsBatch by decide),
    dif_pos (show (1 : Fin S64x40.rank) ∈ dot_S100000x64_S64x40_S100000x40_1_0_0_1_n_n.rhsNonContracting by decide)]
  rfl

/-- The product of a [100000, 64] array with a [64, 40] matrix at `(p, q)`: the row-by-column sum over the
    contracted axis. -/
theorem dot2_apply (l : FVec Ideal S100000x64 .f32) (r : FVec Ideal S64x40 .f32) (p : Fin 100000) (q : Fin 40) :
    Host.dotGeneral (F := Ideal) dot_S100000x64_S64x40_S100000x40_1_0_0_1_n_n none l r (ix2 p q) = ∑ k : Fin 64, l (ix2 p k) * r (ix2 k q) := by
  simp only [Host.dotGeneral]
  rw [Ideal.dotGeneral_apply, ← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  have el : dot_S100000x64_S64x40_S100000x40_1_0_0_1_n_n.lhsIdx (ix2 p q) ((contrEquiv1 dot_S100000x64_S64x40_S100000x40_1_0_0_1_n_n 64 rfl rfl).symm k) = ix2 p k :=
    funext fun a => Fin.ext (by
      match a with
      | ⟨0, _⟩ => exact dot2_l0 _ _
      | ⟨1, _⟩ => exact (dot2_l1 _ _).trans hk)
  have er : dot_S100000x64_S64x40_S100000x40_1_0_0_1_n_n.rhsIdx (ix2 p q) ((contrEquiv1 dot_S100000x64_S64x40_S100000x40_1_0_0_1_n_n 64 rfl rfl).symm k) = ix2 k q :=
    funext fun a => Fin.ext (by
      match a with
      | ⟨0, _⟩ => exact (dot2_r0 _ _).trans hk
      | ⟨1, _⟩ => exact dot2_r1 _ _)
  rw [el, er]

/-! ## Broadcasts at an index -/

/-- A vector of `100000` entries as a [100000, 1] column, at `(p, 0)`: its entry at `p`. -/
theorem toCol_apply {α : Type} (D : S100000.Idx → α) (p : Fin 100000) :
    broadcastInDim S100000x1 ![0] bcast_S100000_S100000x1_0 D (ix2 p (0 : Fin 1)) = D (ix1 p) :=
  broadcastInDim_apply _ bcast_S100000_S100000x1_0 D (ix2 p (0 : Fin 1)) (ix1 p) (fun a => match a with
    | ⟨0, _⟩ => by show p.val = if (100000 : Nat) = 1 then 0 else p.val; rw [if_neg (by decide)])

/-- A [100000, 1] column broadcast along 128 features, at `(p, k)`: the column at `(p, 0)`. -/
theorem colStep128_apply {α : Type} (y : S100000x1.Idx → α) (p : Fin 100000) (k : Fin 128) :
    broadcastInDim S100000x128 ![0, 1] bcast_S100000x1_S100000x128_0_1 y (ix2 p k) = y (ix2 p (0 : Fin 1)) :=
  broadcastInDim_apply _ bcast_S100000x1_S100000x128_0_1 y (ix2 p k) (ix2 p (0 : Fin 1)) (fun a => match a with
    | ⟨0, _⟩ => by show p.val = if (100000 : Nat) = 1 then 0 else p.val; rw [if_neg (by decide)]
    | ⟨1, _⟩ => by show 0 = if (1 : Nat) = 1 then 0 else k.val; rw [if_pos rfl])

/-- A vector of `100000` entries broadcast along 128 features through a column, at `(p, k)`: its entry at `p`. -/
theorem col128_apply {α : Type} (D : S100000.Idx → α) (p : Fin 100000) (k : Fin 128) :
    broadcastInDim S100000x128 ![0, 1] bcast_S100000x1_S100000x128_0_1
      (broadcastInDim S100000x1 ![0] bcast_S100000_S100000x1_0 D) (ix2 p k) = D (ix1 p) := by
  rw [colStep128_apply, toCol_apply]

/-- A [100000, 1] column broadcast along 64 features, at `(p, k)`: the column at `(p, 0)`. -/
theorem colStep64_apply {α : Type} (y : S100000x1.Idx → α) (p : Fin 100000) (k : Fin 64) :
    broadcastInDim S100000x64 ![0, 1] bcast_S100000x1_S100000x64_0_1 y (ix2 p k) = y (ix2 p (0 : Fin 1)) :=
  broadcastInDim_apply _ bcast_S100000x1_S100000x64_0_1 y (ix2 p k) (ix2 p (0 : Fin 1)) (fun a => match a with
    | ⟨0, _⟩ => by show p.val = if (100000 : Nat) = 1 then 0 else p.val; rw [if_neg (by decide)]
    | ⟨1, _⟩ => by show 0 = if (1 : Nat) = 1 then 0 else k.val; rw [if_pos rfl])

/-- A vector of `100000` entries broadcast along 64 features through a column, at `(p, k)`: its entry at `p`. -/
theorem col64_apply {α : Type} (D : S100000.Idx → α) (p : Fin 100000) (k : Fin 64) :
    broadcastInDim S100000x64 ![0, 1] bcast_S100000x1_S100000x64_0_1
      (broadcastInDim S100000x1 ![0] bcast_S100000_S100000x1_0 D) (ix2 p k) = D (ix1 p) := by
  rw [colStep64_apply, toCol_apply]

/-- A [100000, 1] column broadcast along 40 features, at `(p, k)`: the column at `(p, 0)`. -/
theorem colStep40_apply {α : Type} (y : S100000x1.Idx → α) (p : Fin 100000) (k : Fin 40) :
    broadcastInDim S100000x40 ![0, 1] bcast_S100000x1_S100000x40_0_1 y (ix2 p k) = y (ix2 p (0 : Fin 1)) :=
  broadcastInDim_apply _ bcast_S100000x1_S100000x40_0_1 y (ix2 p k) (ix2 p (0 : Fin 1)) (fun a => match a with
    | ⟨0, _⟩ => by show p.val = if (100000 : Nat) = 1 then 0 else p.val; rw [if_neg (by decide)]
    | ⟨1, _⟩ => by show 0 = if (1 : Nat) = 1 then 0 else k.val; rw [if_pos rfl])

/-- A vector of `100000` entries broadcast along 40 features through a column, at `(p, k)`: its entry at `p`. -/
theorem col40_apply {α : Type} (D : S100000.Idx → α) (p : Fin 100000) (k : Fin 40) :
    broadcastInDim S100000x40 ![0, 1] bcast_S100000x1_S100000x40_0_1
      (broadcastInDim S100000x1 ![0] bcast_S100000_S100000x1_0 D) (ix2 p k) = D (ix1 p) := by
  rw [colStep40_apply, toCol_apply]

/-- A vector of 64 entries broadcast down the `100000` rows through a row, at `(p, q)`: its entry at `q`. -/
theorem row64_apply {α : Type} (b : S64.Idx → α) (p : Fin 100000) (q : Fin 64) :
    broadcastInDim S100000x64 ![0, 1] bcast_S1x64_S100000x64_0_1
      (broadcastInDim S1x64 ![1] bcast_S64_S1x64_1 b) (ix2 p q) = b (ix1 q) := by
  rw [broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])]
  exact broadcastInDim_apply _ bcast_S64_S1x64_1 b (ix2 (0 : Fin 1) q) (ix1 q) (fun a => match a with
    | ⟨0, _⟩ => by show q.val = if (64 : Nat) = 1 then 0 else q.val; rw [if_neg (by decide)])

/-- A vector of 40 entries broadcast down the `100000` rows through a row, at `(p, q)`: its entry at `q`. -/
theorem row40_apply {α : Type} (b : S40.Idx → α) (p : Fin 100000) (q : Fin 40) :
    broadcastInDim S100000x40 ![0, 1] bcast_S1x40_S100000x40_0_1
      (broadcastInDim S1x40 ![1] bcast_S40_S1x40_1 b) (ix2 p q) = b (ix1 q) := by
  rw [broadcastInDim_apply _ bcast_S1x40_S100000x40_0_1 _ (ix2 p q) (ix2 (0 : Fin 1) q) (fun a => match a with
    | ⟨0, _⟩ => by show 0 = if (1 : Nat) = 1 then 0 else p.val; rw [if_pos rfl]
    | ⟨1, _⟩ => by show q.val = if (40 : Nat) = 1 then 0 else q.val; rw [if_neg (by decide)])]
  exact broadcastInDim_apply _ bcast_S40_S1x40_1 b (ix2 (0 : Fin 1) q) (ix1 q) (fun a => match a with
    | ⟨0, _⟩ => by show q.val = if (40 : Nat) = 1 then 0 else q.val; rw [if_neg (by decide)])

/-- A scalar literal broadcast to any shape reads, at every index, the extended real its word encodes. -/
theorem scalar_apply {t : Shape} (h : S_.BroadcastsInDim t (![] : Fin 0 → Fin t.rank)) (w : BitVec 32) (i : t.Idx) :
    broadcastInDim t ![] h (constant (F := Ideal) S_ .f32 w) i = Ideal.ofBits .f32 w := rfl

/-! ## A layer's affine part at an index -/

/-- The first layer's affine part at `(p, q)`: the layer formula, with the reciprocal of the degree as the
    row factor (the degree is not zero). -/
theorem lin1_apply (S X : FVec Ideal S100000x128 .f32) (D : FVec Ideal S100000 .f32) (Wl Wr : FVec Ideal S128x64 .f32)
    (b : FVec Ideal S64 .f32) (hD : ∀ p : Fin 100000, D (ix1 p) ≠ 0) (p : Fin 100000) (q : Fin 64) :
    lin1 (F := Ideal) S X D Wl Wr b (ix2 p q)
      = Cert.Sage.sageAt S X (fun p' => Ideal.div 1 (D (ix1 p'))) Wl Wr (fun q' => b (ix1 q')) p q := by
  unfold lin1
  rw [addf_apply, addf_apply, dot1_apply, dot1_apply, row64_apply]
  unfold Cert.Sage.sageAt
  refine congrArg (· + _) (congrArg (· + _) (Finset.sum_congr rfl fun k _ => ?_))
  show Ideal.div (S (ix2 p k)) (broadcastInDim S100000x128 ![0, 1] bcast_S100000x1_S100000x128_0_1
      (broadcastInDim S100000x1 ![0] bcast_S100000_S100000x1_0 D) (ix2 p k)) * Wl (ix2 k q) = _
  rw [col128_apply, Cert.Sage.div_eq_mul_one_div _ (hD p)]

/-- The second layer's affine part at `(p, q)`: the layer formula, with the reciprocal of the degree as the
    row factor (the degree is not zero). -/
theorem lin2_apply (S X : FVec Ideal S100000x64 .f32) (D : FVec Ideal S100000 .f32) (Wl Wr : FVec Ideal S64x40 .f32)
    (b : FVec Ideal S40 .f32) (hD : ∀ p : Fin 100000, D (ix1 p) ≠ 0) (p : Fin 100000) (q : Fin 40) :
    lin2 (F := Ideal) S X D Wl Wr b (ix2 p q)
      = Cert.Sage.sageAt S X (fun p' => Ideal.div 1 (D (ix1 p'))) Wl Wr (fun q' => b (ix1 q')) p q := by
  unfold lin2
  rw [addf_apply, addf_apply, dot2_apply, dot2_apply, row40_apply]
  unfold Cert.Sage.sageAt
  refine congrArg (· + _) (congrArg (· + _) (Finset.sum_congr rfl fun k _ => ?_))
  show Ideal.div (S (ix2 p k)) (broadcastInDim S100000x64 ![0, 1] bcast_S100000x1_S100000x64_0_1
      (broadcastInDim S100000x1 ![0] bcast_S100000_S100000x1_0 D) (ix2 p k)) * Wl (ix2 k q) = _
  rw [col64_apply, Cert.Sage.div_eq_mul_one_div _ (hD p)]

/-! ## The clamp at zero, and the clamped degree -/

/-- The clamp at `(p, q)`: the maximum of the entry and the zero literal. -/
theorem relu_apply (z : FVec Ideal S100000x64 .f32) (p : Fin 100000) (q : Fin 64) :
    relu (F := Ideal) z (ix2 p q) = max (z (ix2 p q)) (Ideal.ofBits .f32 0x00000000#32) := rfl

/-- The literal `0x3F800000` is one, so it is positive. -/
theorem zero_lt_one_literal : (0 : EReal) < Ideal.ofBits .f32 0x3F800000#32 := by
  have h1 : Ideal.ofBits .f32 0x3F800000#32 = 1 := by simp [Ideal.ofBits, Ideal.ieee, -EReal.coe_mul]; norm_num
  rw [h1]; exact zero_lt_one

/-- The clamped degree is a maximum with one, so it is not zero. -/
theorem degClamped_ne_zero (d : IVec S1600000 32) (p : Fin 100000) : degClamped (F := Ideal) d (ix1 p) ≠ 0 := by
  unfold degClamped
  rw [maximumf_apply]
  exact Cert.Sage.max_ne_zero zero_lt_one_literal

/-! ## The row-wise log-softmax at an index -/

/-- A row index with a feature put back on the reduced axis is `(p, k)`. -/
theorem lift_row (h : S100000x40.Reduces [1] S100000) (p : Fin 100000) (k : Fin (S100000x40.size 1)) :
    h.lift (ix1 p) k = ix2 p (⟨k.val, k.isLt⟩ : Fin 40) := by
  funext c; apply Fin.ext
  fin_cases c <;> rfl

/-- The reference's row maximum at `p`: the fold of `max` from `−∞` over the row's entries. -/
theorem rowMaxVec_apply (z : FVec Ideal S100000x40 .f32) (p : Fin 100000) :
    rowMaxVec (F := Ideal) z (ix1 p)
      = Cert.Sage.rowMax (Ideal.ofBits .f32 0xFF800000#32) (fun q' : Fin 40 => z (ix2 p q')) := by
  have h : S100000x40.Reduces [1] S100000 := by decide
  unfold rowMaxVec
  rw [maximumf_apply, Host.reduce_eq_fold_single FloatOps.maximumf z _ reducesTo_S100000x40_S100000_d1 h h_S_]
  have hf : (z ∘ h.lift (ix1 p)) = fun k : Fin 40 => z (ix2 p k) := funext fun k => congrArg z (lift_row h p k)
  have e : (Finset.univ : Finset (Fin (S100000x40.size 1))).fold FloatOps.maximumf
        (constant (F := Ideal) S_ .f32 0xFF800000#32 (Shape.Idx.first h_S_)) (z ∘ h.lift (ix1 p))
      = Cert.Sage.rowMax (Ideal.ofBits .f32 0xFF800000#32) (fun q' : Fin 40 => z (ix2 p q')) :=
    congrArg (fun f => Finset.fold max (Ideal.ofBits .f32 0xFF800000#32) f (Finset.univ : Finset (Fin 40))) hf
  rw [e]
  exact Cert.Sage.max_rowMax _ _

/-- A row shifted by its maximum, at `(p, q)`. -/
theorem shifted_apply (z : FVec Ideal S100000x40 .f32) (p : Fin 100000) (q : Fin 40) :
    shifted (F := Ideal) z (ix2 p q)
      = z (ix2 p q) - Cert.Sage.rowMax (Ideal.ofBits .f32 0xFF800000#32) (fun q' : Fin 40 => z (ix2 p q')) := by
  unfold shifted
  rw [subf_apply, col40_apply, rowMaxVec_apply]

/-- The sum of the exponentials of a shifted row, at `p`. -/
theorem sumExp_apply (z : FVec Ideal S100000x40 .f32) (p : Fin 100000) :
    Host.reduceAdd (F := Ideal) (Host.exp (F := Ideal) (shifted (F := Ideal) z)) (constant S_ .f32 0x00000000#32) reducesTo_S100000x40_S100000_d1 h_S_ (ix1 p)
      = ∑ q' : Fin 40, Ideal.exp (z (ix2 p q')
          - Cert.Sage.rowMax (Ideal.ofBits .f32 0xFF800000#32) (fun q'' : Fin 40 => z (ix2 p q''))) := by
  have h : S100000x40.Reduces [1] S100000 := by decide
  simp only [Host.reduceAdd, Ideal.hostReduceAdd_def]
  rw [Ideal.hostReduceAdd_single reducesTo_S100000x40_S100000_d1 h]
  show Ideal.ofBits .f32 0x00000000#32 + _ = _
  rw [Ideal.ofBits_zero_f32, zero_add]
  refine Finset.sum_congr rfl fun k _ => ?_
  rw [lift_row h p k]
  show Ideal.exp (shifted (F := Ideal) z (ix2 p _)) = _
  rw [shifted_apply]
  rfl

/-- The reference's log-softmax at `(p, q)`: the log-softmax of row `p` at `q`. -/
theorem logSoftmaxVec_apply (z : FVec Ideal S100000x40 .f32) (p : Fin 100000) (q : Fin 40) :
    logSoftmaxVec (F := Ideal) z (ix2 p q)
      = Cert.Sage.logSoftmax (Ideal.ofBits .f32 0xFF800000#32) (fun q' : Fin 40 => z (ix2 p q')) q := by
  unfold logSoftmaxVec
  rw [subf_apply, shifted_apply, colStep40_apply]
  simp only [Host.log, Ideal.hostUnary_log_def]
  rw [toCol_apply, sumExp_apply]
  rfl

/-! ## The two layers as arrays -/

/-- The hidden layer is the first layer's array: the sum of the neighbours' rows, the node's own rows, the
    reciprocal of the clamped degree, the two weight matrices and the bias, clamped below at the zero literal. -/
theorem hidden_eq (x0 : (⟨S100000x128, .f32⟩ : BufTy).Contents (Elt Ideal)) (e : (⟨S2x1600000, .i32⟩ : BufTy).Contents (Elt Ideal))
    (x2 x3 : (⟨S128x64, .f32⟩ : BufTy).Contents (Elt Ideal)) (x4 : (⟨S64, .f32⟩ : BufTy).Contents (Elt Ideal)) :
    Hand.hidden (F := Ideal) x0 e x2 x3 x4
      = Cert.Sage.layer1 (agg128 (F := Ideal) (srcRaw (F := Ideal) e) (dstRaw (F := Ideal) e) x0) x0
          (fun p => Ideal.div 1 (degClamped (F := Ideal) (dstRaw (F := Ideal) e) (ix1 p))) x2 x3 (fun q => x4 (ix1 q))
          (Ideal.ofBits .f32 0x00000000#32) := by
  funext i
  obtain ⟨p, q, rfl⟩ : ∃ (p : Fin 100000) (q : Fin 64), i = ix2 p q := ⟨i 0, i 1, eq_ix2 i⟩
  rw [Cert.Sage.layer1_ix2]
  unfold Hand.hidden
  rw [relu_apply, lin1_apply _ _ _ _ _ _ (fun p' => degClamped_ne_zero _ p')]

/-- The reference's result is the second layer's array over the hidden layer: the row-wise log-softmax (from the
    `−∞` literal) of the affine part. -/
theorem result_eq (x0 : (⟨S100000x128, .f32⟩ : BufTy).Contents (Elt Ideal)) (e : (⟨S2x1600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x40, .f32⟩ : BufTy).Contents (Elt Ideal)) (x7 : (⟨S40, .f32⟩ : BufTy).Contents (Elt Ideal)) :
    Hand.result (F := Ideal) x0 e x2 x3 x4 x5 x6 x7
      = Cert.Sage.layer2
          (agg64 (F := Ideal) (srcRaw (F := Ideal) e) (dstRaw (F := Ideal) e) (Hand.hidden (F := Ideal) x0 e x2 x3 x4))
          (Hand.hidden (F := Ideal) x0 e x2 x3 x4)
          (fun p => Ideal.div 1 (degClamped (F := Ideal) (dstRaw (F := Ideal) e) (ix1 p))) x5 x6 (fun q => x7 (ix1 q))
          (Ideal.ofBits .f32 0xFF800000#32) := by
  funext i
  obtain ⟨p, q, rfl⟩ : ∃ (p : Fin 100000) (q : Fin 40), i = ix2 p q := ⟨i 0, i 1, eq_ix2 i⟩
  rw [Cert.Sage.layer2_ix2]
  unfold Hand.result
  rw [logSoftmaxVec_apply]
  refine congrArg (fun f => Cert.Sage.logSoftmax (Ideal.ofBits .f32 0xFF800000#32) f q) (funext fun q' => ?_)
  exact lin2_apply _ _ _ _ _ _ (fun p' => degClamped_ne_zero _ p') p q'

end Cert.ReferenceIdeal.HandValue

end
-- ==== Proof.Bridge.lean ====
/-
  The kernel program's two values are the reference's.  Both are a layer of the same summed neighbour rows, the same
  weights and the same clamped degree; they differ in how two small vectors reach the layer.  The kernel program
  takes the reciprocal of the clamped degree once, as a column: the literal one divided by the degree, reshaped
  from [n] to [n, 1]; at (p, 0) that is one over the degree of node p, which is the row factor of the reference's
  layer.  Its bias is the bias vector reshaped to one row, read at (0, q): the vector's entry q.
-/
import proofs.«124584_j46772193853511_2_alg».proof.Proof.KernelDefs
import proofs.«124584_j46772193853511_2_alg».proof.Proof.RefValue
import proofs.«124584_j46772193853511_2_alg».proof.Proof.LibColumnLayout
import Idealize.ShloMosaic.Lib.ValueLayout

noncomputable section

namespace Cert.Bridge

open Cert.KernelIdeal Idealize.ShloMosaic Idealize.ShloMosaic.TcCoe Idealize.SL.Sem Idealize.ShloMosaic.ValueIdx

/-- The literal `0x3F800000` is the extended real one. -/
theorem one_f32 : Ideal.ofBits .f32 0x3F800000#32 = 1 := by
  simp [Ideal.ofBits, Ideal.ieee]; rw [← EReal.coe_mul, ← EReal.coe_one]; exact congrArg _ (by norm_num)

/-- A quotient of two arrays at an index is the quotient of the elements. -/
theorem hostDivf_apply {s : Shape} (a b : FVec Ideal s .f32) (i : s.Idx) : Host.divf a b i = Ideal.div (a i) (b i) := rfl

/-- The reciprocal-degree column at `(p, 0)`: one over the clamped degree of node `p`. -/
theorem invDeg_apply (e : (⟨S2x1600000, .i32⟩ : BufTy).Contents (Elt Ideal)) (p : Fin 100000) :
    Cert.KernelIdeal.HostValue.invDeg e (ix2 p (0 : Fin 1))
      = Ideal.div 1 (Cert.ReferenceIdeal.Hand.degClamped (F := Ideal) (Cert.ReferenceIdeal.Hand.dstRaw (F := Ideal) e) (ix1 p)) := by
  unfold Cert.KernelIdeal.HostValue.invDeg
  refine (Cert.Gcn.Layout.shapeCast_a_a1_apply _ _ p (0 : Fin 1)).trans ?_
  rw [hostDivf_apply, Cert.ReferenceIdeal.HandValue.scalar_apply, one_f32]

/-- The kernel program's hidden layer is the reference's: the same first layer, its row factor the column's entry
    at `(p, 0)` and its bias the one-row reshape's entry at `(0, q)`. -/
theorem hiddenK_eq (m : (ℓ : Loc nD τ sig) → Buf (Elt Ideal) ℓ) (c : Dev nD) :
    Cert.KernelIdeal.HostValue.hiddenK m c
      = Cert.ReferenceIdeal.Hand.hidden (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine Eq.trans ?_ (Cert.ReferenceIdeal.HandValue.hidden_eq _ _ _ _ _).symm
  unfold Cert.KernelIdeal.HostValue.hiddenK
  exact congrArg₂ (fun (r : Fin 100000 → EReal) (b : Fin 64 → EReal) =>
      Cert.Sage.layer1 (N := 100000) (K := 128) (C := 64) _ _ r _ _ b _)
    (funext fun p => invDeg_apply _ p) (funext fun q => shapeCast_a_1a_apply _ _ (0 : Fin 1) q)

/-- The kernel program's result is the reference's: the same second layer over the same hidden layer. -/
theorem resultK_eq (m : (ℓ : Loc nD τ sig) → Buf (Elt Ideal) ℓ) (c : Dev nD) :
    Cert.KernelIdeal.HostValue.resultK m c
      = Cert.ReferenceIdeal.Hand.result (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine Eq.trans ?_ (Cert.ReferenceIdeal.HandValue.result_eq _ _ _ _ _ _ _ _).symm
  unfold Cert.KernelIdeal.HostValue.resultK
  rw [hiddenK_eq m c]
  exact congrArg₂ (fun (r : Fin 100000 → EReal) (b : Fin 40 → EReal) =>
      Cert.Sage.layer2 (N := 100000) (K := 64) (C := 40) _ _ r _ _ b _)
    (funext fun p => invDeg_apply _ p) (funext fun q => shapeCast_a_1a_apply _ _ (0 : Fin 1) q)

end Cert.Bridge

end
-- ==== Proof.lean ====
/-
  A two-layer GraphSAGE network with a row-wise log-softmax, as a tiled kernel program against its plain reference.

  Both programs cut the edge list into sources and destinations, count each node's in-degree (clamped below at one),
  sum the neighbours' feature rows (a gather along the sources scattered and added along the destinations), and apply
      layer(S, X)[p, q] = (∑ₖ S[p,k]/deg[p] · Wl[k,q]) + (∑ₖ X[p,k] · Wr[k,q]) + b[q]
  twice: clamped at zero after the first layer, followed by a row-wise log-softmax after the second.  The kernel
  program computes each layer in twenty blocks of 5000 rows, multiplies by the reciprocal degree `1/deg` where the
  reference divides by `deg`, and passes features through a narrower float format on the way (the identity on the
  extended reals).  The blocks tile the arrays, a matrix product is the same finite sum however it is tiled, and
  `s / d = s · (1 / d)` for a divisor `d ≠ 0` (here `d = max deg 1 ≥ 1`): so the two results agree at every index.
  No finiteness of the inputs is used.

  The three frames are the generated frame proofs (the reference's is its run with the result dropped); the
  idealization ledger is empty.
-/
import proofs.«124584_j46772193853511_2_alg».proof.Defs
import proofs.«124584_j46772193853511_2_alg».proof.Proof.Gen.Kernel
import proofs.«124584_j46772193853511_2_alg».proof.Proof.Gen.Kernel.Frame
import proofs.«124584_j46772193853511_2_alg».proof.Proof.Gen.KernelIdeal
import proofs.«124584_j46772193853511_2_alg».proof.Proof.Gen.KernelIdeal.Frame
import proofs.«124584_j46772193853511_2_alg».proof.Proof.Gen.ReferenceIdeal
import proofs.«124584_j46772193853511_2_alg».proof.Proof.Gen.Pre_finite_inputs
import proofs.«124584_j46772193853511_2_alg».proof.Proof.KernelRun
import proofs.«124584_j46772193853511_2_alg».proof.Proof.KernelValue
import proofs.«124584_j46772193853511_2_alg».proof.Proof.RefRun
import proofs.«124584_j46772193853511_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run (F := Ideal) m ρ)

/-- The ledger of the idealization is empty. -/
theorem preserves : Cert.preserves_Kernel_KernelIdeal := trivial

/-- Both programs end with the result array at one function of the arguments: the kernel program's result array is
    the second layer of the hidden layer (read off the two launches' blocks), the reference's is its operations'
    composed term, and the two are the same function. -/
theorem algebraic : Cert.algebraic_KernelIdeal_ReferenceIdeal := by
  intro m ρ m' ρ' _ hagree
  refine ⟨fun c => Cert.KernelIdeal.HostValue.resultK m c, ?_, ?_⟩
  · exact (θ_run Cert.KernelIdeal.defs _ _).mono (fun _ h c => ⟨(h c).1.trans (Cert.KernelIdeal.HostValue.out1 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.HandRun.run (F := Ideal) m' ρ')
    obtain ⟨h0, h1, h2, h3, h4, h5, h6, h7⟩ := hagree c
    rw [h0, h1, h2, h3, h4, h5, h6, h7]
    exact (Cert.Bridge.resultK_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
